-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000000x1 : Shape := ⟨2, ![5000000, 1]⟩
abbrev S2x80000000 : Shape := ⟨2, ![2, 80000000]⟩
abbrev S1x1 : Shape := ⟨2, ![1, 1]⟩
abbrev S1 : Shape := ⟨1, ![1]⟩
abbrev S2x50 : Shape := ⟨2, ![2, 50]⟩
abbrev S2 : Shape := ⟨1, ![2]⟩
abbrev S_ : Shape := ⟨0, ![]⟩

class Facts : Prop where
  bcast_S_S5000000x1 : S_.BroadcastsInDim S5000000x1 (![] : Fin 0 → Fin S5000000x1.rank)
  reducesTo_S5000000x1_S_d0_1 : S5000000x1.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_
  bcast_S_S2x50 : S_.BroadcastsInDim S2x50 (![] : Fin 0 → Fin S2x50.rank)
  reducesTo_S2x50_S_d0_1 : S2x50.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S2x50 1) : IVec S_ 1 :=
  let main_c_5 : IVec S_ 1 := constantI S_ 1 1#1
  let main_v17 : IVec S_ 1 := (fun x v => Host.reduce IntOp.andi x v reducesTo_S2x50_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S5000000x1 .f32) (main_arg1 : IVec S2x80000000 32) (main_arg2 : FVec F S1x1 .f32) (main_arg3 : FVec F S1 .f32) (main_arg4 : FVec F S2x50 .f32) (main_arg5 : FVec F S2 .f32) : IVec S_ 1 :=
  let main_v0 : FVec F S5000000x1 .f32 := Host.absf main_arg0
  let main_cst : FVec F S_ .f32 := constant S_ .f32 0x7F800000#32
  let main_v1 : FVec F S5000000x1 .f32 := broadcastInDim S5000000x1 ![] bcast_S_S5000000x1 main_cst
  let main_v2 : IVec S5000000x1 1 := cmpf .olt main_v0 main_v1
  let main_c : IVec S_ 1 := constantI S_ 1 1#1
  let main_v3 : IVec S_ 1 := (fun x v => Host.reduce IntOp.andi x v reducesTo_S5000000x1_S_d0_1 h_S_) main_v2 main_c
  let main_v4 : FVec F S1x1 .f32 := Host.absf main_arg2
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S2x50 .f32 := Host.absf main_arg4
  let main_cst_4 : FVec F S_ .f32 := constant S_ .f32 0x7F800000#32
  let main_v15 : FVec F S2x50 .f32 := broadcastInDim S2x50 ![] bcast_S_S2x50 main_cst_4
  let main_v16 : IVec S2x50 1 := cmpf .olt main_v14 main_v15
  fn_part1 (F := F) main_arg5 main_v13 main_v16
-- ==== Kernel.lean ====
abbrev S5000000x1 : Shape := ⟨2, ![5000000, 1]⟩
abbrev S2x80000000 : Shape := ⟨2, ![2, 80000000]⟩
abbrev S1x1 : Shape := ⟨2, ![1, 1]⟩
abbrev S1 : Shape := ⟨1, ![1]⟩
abbrev S2x50 : Shape := ⟨2, ![2, 50]⟩
abbrev S2 : Shape := ⟨1, ![2]⟩
abbrev S1x80000000 : Shape := ⟨2, ![1, 80000000]⟩
abbrev S80000000 : Shape := ⟨1, ![80000000]⟩
abbrev S_ : Shape := ⟨0, ![]⟩
abbrev S5000000 : Shape := ⟨1, ![5000000]⟩
abbrev S80000000x1 : Shape := ⟨2, ![80000000, 1]⟩
abbrev S5242880 : Shape := ⟨1, ![5242880]⟩
abbrev S40960x128 : Shape := ⟨2, ![40960, 128]⟩
abbrev S4096x128 : Shape := ⟨2, ![4096, 128]⟩
abbrev S5000000x2 : Shape := ⟨2, ![5000000, 2]⟩
abbrev S80000000x2 : Shape := ⟨2, ![80000000, 2]⟩
abbrev S100000x50 : Shape := ⟨2, ![100000, 50]⟩
abbrev S50x2 : Shape := ⟨2, ![50, 2]⟩
abbrev S1x2 : Shape := ⟨2, ![1, 2]⟩
abbrev S100000x2 : Shape := ⟨2, ![100000, 2]⟩
abbrev S10000x50 : Shape := ⟨2, ![10000, 50]⟩
abbrev S10000x2 : Shape := ⟨2, ![10000, 2]⟩

abbrev nBuf : Space → Nat
  | .hbm => 74
  | .vmem => 18
  | .smem => 0
  | _ => 0

abbrev bufTy : (tb : Table) → Fin (tcTables nBuf tb) → BufTy
  | .hbm, ⟨0, _⟩ => ⟨S5000000x1, .f32⟩
  | .hbm, ⟨1, _⟩ => ⟨S2x80000000, .i32⟩
  | .hbm, ⟨2, _⟩ => ⟨S1x1, .f32⟩
  | .hbm, ⟨3, _⟩ => ⟨S1, .f32⟩
  | .hbm, ⟨4, _⟩ => ⟨S2x50, .f32⟩
  | .hbm, ⟨5, _⟩ => ⟨S2, .f32⟩
  | .hbm, ⟨6, _⟩ => ⟨S1x80000000, .i32⟩
  | .hbm, ⟨7, _⟩ => ⟨S80000000, .i32⟩
  | .hbm, ⟨8, _⟩ => ⟨S1x80000000, .i32⟩
  | .hbm, ⟨9, _⟩ => ⟨S80000000, .i32⟩
  | .hbm, ⟨10, _⟩ => ⟨S_, .f32⟩
  | .hbm, ⟨11, _⟩ => ⟨S80000000, .f32⟩
  | .hbm, ⟨12, _⟩ => ⟨S_, .f32⟩
  | .hbm, ⟨13, _⟩ => ⟨S5000000, .f32⟩
  | .hbm, ⟨14, _⟩ => ⟨S80000000x1, .i32⟩
  | .hbm, ⟨15, _⟩ => ⟨S5000000, .f32⟩
  | .hbm, ⟨16, _⟩ => ⟨S_, .f32⟩
  | .hbm, ⟨17, _⟩ => ⟨S5000000, .f32⟩
  | .hbm, ⟨18, _⟩ => ⟨S5000000, .f32⟩
  | .hbm, ⟨19, _⟩ => ⟨S5000000, .f32⟩
  | .hbm, ⟨20, _⟩ => ⟨S_, .i32⟩
  | .hbm, ⟨21, _⟩ => ⟨S_, .f32⟩
  | .hbm, ⟨22, _⟩ => ⟨S5242880, .f32⟩
  | .hbm, ⟨23, _⟩ => ⟨S_, .i32⟩
  | .hbm, ⟨24, _⟩ => ⟨S_, .f32⟩
  | .hbm, ⟨25, _⟩ => ⟨S5242880, .f32⟩
  | .hbm, ⟨26, _⟩ => ⟨S40960x128, .f32⟩
  | .hbm, ⟨27, _⟩ => ⟨S40960x128, .f32⟩
  | .hbm, ⟨28, _⟩ => ⟨S40960x128, .f32⟩
  | .hbm, ⟨29, _⟩ => ⟨S40960x128, .f32⟩
  | .hbm, ⟨30, _⟩ => ⟨S40960x128, .f32⟩
  | .hbm, ⟨31, _⟩ => ⟨S5242880, .f32⟩
  | .hbm, ⟨32, _⟩ => ⟨S5000000, .f32⟩
  | .hbm, ⟨33, _⟩ => ⟨S5242880, .f32⟩
  | .hbm, ⟨34, _⟩ => ⟨S5000000, .f32⟩
  | .hbm, ⟨35, _⟩ => ⟨S5242880, .f32⟩
  | .hbm, ⟨36, _⟩ => ⟨S5000000, .f32⟩
  | .hbm, ⟨37, _⟩ => ⟨S5000000x1, .f32⟩
  | .hbm, ⟨38, _⟩ => ⟨S5000000x1, .f32⟩
  | .hbm, ⟨39, _⟩ => ⟨S5000000x2, .f32⟩
  | .hbm, ⟨40, _⟩ => ⟨S_, .i32⟩
  | .hbm, ⟨41, _⟩ => ⟨S80000000, .i32⟩
  | .hbm, ⟨42, _⟩ => ⟨S80000000, .i1⟩
  | .hbm, ⟨43, _⟩ => ⟨S_, .i32⟩
  | .hbm, ⟨44, _⟩ => ⟨S80000000, .i32⟩
  | .hbm, ⟨45, _⟩ => ⟨S80000000, .i32⟩
  | .hbm, ⟨46, _⟩ => ⟨S80000000, .i32⟩
  | .hbm, ⟨47, _⟩ => ⟨S80000000x1, .i32⟩
  | .hbm, ⟨48, _⟩ => ⟨S80000000x2, .f32⟩
  | .hbm, ⟨49, _⟩ => ⟨S_, .i32⟩
  | .hbm, ⟨50, _⟩ => ⟨S80000000, .i32⟩
  | .hbm, ⟨51, _⟩ => ⟨S80000000, .i1⟩
  | .hbm, ⟨52, _⟩ => ⟨S_, .i32⟩
  | .hbm, ⟨53, _⟩ => ⟨S80000000, .i32⟩
  | .hbm, ⟨54, _⟩ => ⟨S80000000, .i32⟩
  | .hbm, ⟨55, _⟩ => ⟨S80000000, .i32⟩
  | .hbm, ⟨56, _⟩ => ⟨S80000000x1, .i32⟩
  | .hbm, ⟨57, _⟩ => ⟨S80000000, .f32⟩
  | .hbm, ⟨58, _⟩ => ⟨S80000000x1, .f32⟩
  | .hbm, ⟨59, _⟩ => ⟨S80000000, .f32⟩
  | .hbm, ⟨60, _⟩ => ⟨S80000000x1, .f32⟩
  | .hbm, ⟨61, _⟩ => ⟨S80000000, .f32⟩
  | .hbm, ⟨62, _⟩ => ⟨S80000000, .f32⟩
  | .hbm, ⟨63, _⟩ => ⟨S80000000, .f32⟩
  | .hbm, ⟨64, _⟩ => ⟨S_, .f32⟩
  | .hbm, ⟨65, _⟩ => ⟨S5000000, .f32⟩
  | .hbm, ⟨66, _⟩ => ⟨S80000000x1, .i32⟩
  | .hbm, ⟨67, _⟩ => ⟨S5000000, .f32⟩
  | .hbm, ⟨68, _⟩ => ⟨S5000000, .f32⟩
  | .hbm, ⟨69, _⟩ => ⟨S100000x50, .f32⟩
  | .hbm, ⟨70, _⟩ => ⟨S1x1, .f32⟩
  | .hbm, ⟨71, _⟩ => ⟨S50x2, .f32⟩
  | .hbm, ⟨72, _⟩ => ⟨S1x2, .f32⟩
  | .hbm, ⟨73, _⟩ => ⟨S100000x2, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S10000x50, .f32⟩
  | .local _ .vmem, ⟨12, _⟩ => ⟨S10000x50, .f32⟩
  | .local _ .vmem, ⟨13, _⟩ => ⟨S1x1, .f32⟩
  | .local _ .vmem, ⟨14, _⟩ => ⟨S50x2, .f32⟩
  | .local _ .vmem, ⟨15, _⟩ => ⟨S1x2, .f32⟩
  | .local _ .vmem, ⟨16, _⟩ => ⟨S10000x2, .f32⟩
  | .local _ .vmem, ⟨17, _⟩ => ⟨S10000x2, .f32⟩
  | _, _ => ⟨S5000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_v11 : Ref sig .tc := ⟨.hbm, 22, rfl⟩
abbrev main_c_2 : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S50x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x80000000_S1x80000000_0_0 : S2x80000000.Slices ![0, 0] S1x80000000
  shapeCasts_S1x80000000_S80000000 : S1x80000000.ShapeCasts S80000000
  slices_S2x80000000_S1x80000000_1_0 : S2x80000000.Slices ![1, 0] S1x80000000
  bcast_S_S80000000 : S_.BroadcastsInDim S80000000 (![] : Fin 0 → Fin S80000000.rank)
  bcast_S_S5000000 : S_.BroadcastsInDim S5000000 (![] : Fin 0 → Fin S5000000.rank)
  bcast_S80000000_S80000000x1_0 : S80000000.BroadcastsInDim S80000000x1 (![0] : Fin 1 → Fin S80000000x1.rank)
  shapeCasts_S5000000x1_S5000000 : S5000000x1.ShapeCasts S5000000
  pads_S5000000_S5242880_02428800 : S5000000.Pads (![0] : Fin 1 → Nat) ![242880] ![0] S5242880
  h_S_ : 0 < S_.numel
  shapeCasts_S5242880_S40960x128 : S5242880.ShapeCasts S40960x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S40960x128_S5242880 : S40960x128.ShapeCasts S5242880
  slices_S5242880_S5000000_0 : S5242880.Slices ![0] S5000000
  bcast_S5000000_S5000000x1_0 : S5000000.BroadcastsInDim S5000000x1 (![0] : Fin 1 → Fin S5000000x1.rank)
  concatenates_S5000000x1_S5000000x1_S5000000x2_d1 : Shape.Concatenates [S5000000x1, S5000000x1] S5000000x2 1
  slices_S80000000x2_S80000000x1_0_0 : S80000000x2.Slices ![0, 0] S80000000x1
  shapeCasts_S80000000x1_S80000000 : S80000000x1.ShapeCasts S80000000
  slices_S80000000x2_S80000000x1_0_1 : S80000000x2.Slices ![0, 1] S80000000x1
  shapeCasts_S5000000_S100000x50 : S5000000.ShapeCasts S100000x50
  shapeCasts_S1_S1x1 : S1.ShapeCasts S1x1
  transposes_S2x50_S50x2_1_0 : S2x50.Transposes [1, 0] S50x2
  shapeCasts_S2_S1x2 : S2.ShapeCasts S1x2
  inb_S10000x50_S10000x50_0_0 : ∀ a, (![0, 0] : Fin 2 → Nat) a + S10000x50.size a ≤ S10000x50.size a
  h_S10000x50 : 0 < S10000x50.numel
  shapeCasts_S10000x50_S10000x50 : S10000x50.ShapeCasts S10000x50
  inb_S50x2_S50x2_0_0 : ∀ a, (![0, 0] : Fin 2 → Nat) a + S50x2.size a ≤ S50x2.size a
  h_S50x2 : 0 < S50x2.numel
  shapeCasts_S50x2_S50x2 : S50x2.ShapeCasts S50x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S5000000_S80000000x1_S80000000_n_0_0_1_wf : ScatterDims.WF S5000000 S80000000x1 S80000000 [] [0] [0] 1
  gather_S5000000x2_S80000000x1_S80000000x2_1_0_n_n_0_1_12_wf : GatherDims.WF S5000000x2 S80000000x1 S80000000x2 [1] [0] [] [0] [] 1 ![1, 2]
  gather_S5000000_S80000000x1_S80000000_n_0_n_n_0_1_1_wf : GatherDims.WF S5000000 S80000000x1 S80000000 [] [0] [] [0] [] 1 ![1]
  dot_S10000x50_S50x2_S10000x2_1_0_0_1_n_n_wf : DotDims.WF S10000x50 S50x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S40960x128.size a
  hwx0_0 : ∀ i : grid0.Coords, EltTy.bits .f32 = 32 ∨ (Rect.block (s := S40960x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S40960x128.size a
  hwx0_1 : ∀ i : grid0.Coords, EltTy.bits .f32 = 32 ∨ (Rect.block (s := S40960x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S40960x128.size a
  hwx0_3 : ∀ i : grid0.Coords, EltTy.bits .f32 = 32 ∨ (Rect.block (s := S40960x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S40960x128.size a
  hwx0_4 : ∀ i : grid0.Coords, EltTy.bits .f32 = 32 ∨ (Rect.block (s := S40960x128) S4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S40960x128.size a
  hwx0_5 : ∀ i : grid0.Coords, EltTy.bits .f32 = 32 ∨ (Rect.block (s := S40960x128) S4096x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x50.size a ≤ S100000x50.size a
  hwx1_0 : ∀ i : grid1.Coords, EltTy.bits .f32 = 32 ∨ (Rect.block (s := S100000x50) S10000x50.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S50x2.size a ≤ S50x2.size a
  hwx1_2 : ∀ i : grid1.Coords, EltTy.bits .f32 = 32 ∨ (Rect.block (s := S50x2) S50x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2.size a ≤ S1x2.size a
  hwx1_3 : ∀ i : grid1.Coords, EltTy.bits .f32 = 32 ∨ (Rect.block (s := S1x2) S1x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x2.size a ≤ S100000x2.size a
  hwx1_4 : ∀ i : grid1.Coords, EltTy.bits .f32 = 32 ∨ (Rect.block (s := S100000x2) S10000x2.size (cc1_transform_4 i) (hinb1_4 i)).WholeWords (EltTy.packing .f32)

variable [Facts₀]

def scatter_S5000000_S80000000x1_S80000000_n_0_0_1 : ScatterDims S5000000 S80000000x1 S80000000 where
  updateWindowDims := []
  insertedWindowDims := [0]
  scatterDimsToOperandDims := [0]
  indexVectorDim := 1
  wf := scatter_S5000000_S80000000x1_S80000000_n_0_0_1_wf
def gather_S5000000x2_S80000000x1_S80000000x2_1_0_n_n_0_1_12 : GatherDims S5000000x2 S80000000x1 S80000000x2 where
  offsetDims := [1]
  collapsedSliceDims := [0]
  operandBatchingDims := []
  startIndicesBatchingDims := []
  startIndexMap := [0]
  indexVectorDim := 1
  sliceSizes := ![1, 2]
  wf := gather_S5000000x2_S80000000x1_S80000000x2_1_0_n_n_0_1_12_wf
def gather_S5000000_S80000000x1_S80000000_n_0_n_n_0_1_1 : GatherDims S5000000 S80000000x1 S80000000 where
  offsetDims := []
  collapsedSliceDims := [0]
  operandBatchingDims := []
  startIndicesBatchingDims := []
  startIndexMap := [0]
  indexVectorDim := 1
  sliceSizes := ![1]
  wf := gather_S5000000_S80000000x1_S80000000_n_0_n_n_0_1_1_wf
def dot_S10000x50_S50x2_S10000x2_1_0_0_1_n_n : DotDims S10000x50 S50x2 S10000x2 where
  lhsContracting := [1]
  rhsContracting := [0]
  lhsNonContracting := [0]
  rhsNonContracting := [1]
  lhsBatch := []
  rhsBatch := []
  wf := dot_S10000x50_S50x2_S10000x2_1_0_0_1_n_n_wf

abbrev win0_0 : Pipeline.Window sig grid0 :=
  Pipeline.Window.ofSpec (Memref.whole main_v13) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S4096x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_2) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S10000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S50x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S10000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S5000000x1 : Shape := ⟨2, ![5000000, 1]⟩
abbrev S2x80000000 : Shape := ⟨2, ![2, 80000000]⟩
abbrev S1x1 : Shape := ⟨2, ![1, 1]⟩
abbrev S1 : Shape := ⟨1, ![1]⟩
abbrev S2x50 : Shape := ⟨2, ![2, 50]⟩
abbrev S2 : Shape := ⟨1, ![2]⟩
abbrev S5000000 : Shape := ⟨1, ![5000000]⟩
abbrev S1x80000000 : Shape := ⟨2, ![1, 80000000]⟩
abbrev S80000000 : Shape := ⟨1, ![80000000]⟩
abbrev S85000000 : Shape := ⟨1, ![85000000]⟩
abbrev S_ : Shape := ⟨0, ![]⟩
abbrev S85000000x1 : Shape := ⟨2, ![85000000, 1]⟩
abbrev S100000x50 : Shape := ⟨2, ![100000, 50]⟩
abbrev S50x2 : Shape := ⟨2, ![50, 2]⟩
abbrev S100000x2 : Shape := ⟨2, ![100000, 2]⟩
abbrev S1x2 : Shape := ⟨2, ![1, 2]⟩

abbrev nBuf : Space → Nat
  | .hbm => 74
  | .vmem => 0
  | .smem => 0
  | _ => 0

abbrev bufTy : (tb : Table) → Fin (tcTables nBuf tb) → BufTy
  | .hbm, ⟨0, _⟩ => ⟨S5000000x1, .f32⟩
  | .hbm, ⟨1, _⟩ => ⟨S2x80000000, .i32⟩
  | .hbm, ⟨2, _⟩ => ⟨S1x1, .f32⟩
  | .hbm, ⟨3, _⟩ => ⟨S1, .f32⟩
  | .hbm, ⟨4, _⟩ => ⟨S2x50, .f32⟩
  | .hbm, ⟨5, _⟩ => ⟨S2, .f32⟩
  | .hbm, ⟨6, _⟩ => ⟨S5000000x1, .f32⟩
  | .hbm, ⟨7, _⟩ => ⟨S5000000, .i32⟩
  | .hbm, ⟨8, _⟩ => ⟨S1x80000000, .i32⟩
  | .hbm, ⟨9, _⟩ => ⟨S80000000, .i32⟩
  | .hbm, ⟨10, _⟩ => ⟨S85000000, .i32⟩
  | .hbm, ⟨11, _⟩ => ⟨S1x80000000, .i32⟩
  | .hbm, ⟨12, _⟩ => ⟨S80000000, .i32⟩
  | .hbm, ⟨13, _⟩ => ⟨S85000000, .i32⟩
  | .hbm, ⟨14, _⟩ => ⟨S_, .f32⟩
  | .hbm, ⟨15, _⟩ => ⟨S85000000, .f32⟩
  | .hbm, ⟨16, _⟩ => ⟨S_, .f32⟩
  | .hbm, ⟨17, _⟩ => ⟨S5000000, .f32⟩
  | .hbm, ⟨18, _⟩ => ⟨S85000000x1, .i32⟩
  | .hbm, ⟨19, _⟩ => ⟨S5000000, .f32⟩
  | .hbm, ⟨20, _⟩ => ⟨S_, .f32⟩
  | .hbm, ⟨21, _⟩ => ⟨S5000000, .f32⟩
  | .hbm, ⟨22, _⟩ => ⟨S5000000, .i1⟩
  | .hbm, ⟨23, _⟩ => ⟨S_, .f32⟩
  | .hbm, ⟨24, _⟩ => ⟨S5000000, .f32⟩
  | .hbm, ⟨25, _⟩ => ⟨S5000000, .f32⟩
  | .hbm, ⟨26, _⟩ => ⟨S5000000, .f32⟩
  | .hbm, ⟨27, _⟩ => ⟨S_, .f32⟩
  | .hbm, ⟨28, _⟩ => ⟨S_, .f32⟩
  | .hbm, ⟨29, _⟩ => ⟨S5000000, .f32⟩
  | .hbm, ⟨30, _⟩ => ⟨S5000000, .f32⟩
  | .hbm, ⟨31, _⟩ => ⟨S_, .i32⟩
  | .hbm, ⟨32, _⟩ => ⟨S85000000, .i32⟩
  | .hbm, ⟨33, _⟩ => ⟨S85000000, .i1⟩
  | .hbm, ⟨34, _⟩ => ⟨S_, .i32⟩
  | .hbm, ⟨35, _⟩ => ⟨S85000000, .i32⟩
  | .hbm, ⟨36, _⟩ => ⟨S85000000, .i32⟩
  | .hbm, ⟨37, _⟩ => ⟨S85000000, .i32⟩
  | .hbm, ⟨38, _⟩ => ⟨S85000000x1, .i32⟩
  | .hbm, ⟨39, _⟩ => ⟨S85000000, .f32⟩
  | .hbm, ⟨40, _⟩ => ⟨S_, .i32⟩
  | .hbm, ⟨41, _⟩ => ⟨S85000000, .i32⟩
  | .hbm, ⟨42, _⟩ => ⟨S85000000, .i1⟩
  | .hbm, ⟨43, _⟩ => ⟨S_, .i32⟩
  | .hbm, ⟨44, _⟩ => ⟨S85000000, .i32⟩
  | .hbm, ⟨45, _⟩ => ⟨S85000000, .i32⟩
  | .hbm, ⟨46, _⟩ => ⟨S85000000, .i32⟩
  | .hbm, ⟨47, _⟩ => ⟨S85000000x1, .i32⟩
  | .hbm, ⟨48, _⟩ => ⟨S85000000, .f32⟩
  | .hbm, ⟨49, _⟩ => ⟨S85000000, .f32⟩
  | .hbm, ⟨50, _⟩ => ⟨S_, .i32⟩
  | .hbm, ⟨51, _⟩ => ⟨S85000000, .i32⟩
  | .hbm, ⟨52, _⟩ => ⟨S85000000, .i1⟩
  | .hbm, ⟨53, _⟩ => ⟨S_, .i32⟩
  | .hbm, ⟨54, _⟩ => ⟨S85000000, .i32⟩
  | .hbm, ⟨55, _⟩ => ⟨S85000000, .i32⟩
  | .hbm, ⟨56, _⟩ => ⟨S85000000, .i32⟩
  | .hbm, ⟨57, _⟩ => ⟨S85000000x1, .i32⟩
  | .hbm, ⟨58, _⟩ => ⟨S85000000x1, .f32⟩
  | .hbm, ⟨59, _⟩ => ⟨S85000000x1, .f32⟩
  | .hbm, ⟨60, _⟩ => ⟨S85000000x1, .f32⟩
  | .hbm, ⟨61, _⟩ => ⟨S_, .f32⟩
  | .hbm, ⟨62, _⟩ => ⟨S5000000x1, .f32⟩
  | .hbm, ⟨63, _⟩ => ⟨S85000000x1, .i32⟩
  | .hbm, ⟨64, _⟩ => ⟨S5000000x1, .f32⟩
  | .hbm, ⟨65, _⟩ => ⟨S1x1, .f32⟩
  | .hbm, ⟨66, _⟩ => ⟨S5000000x1, .f32⟩
  | .hbm, ⟨67, _⟩ => ⟨S5000000x1, .f32⟩
  | .hbm, ⟨68, _⟩ => ⟨S100000x50, .f32⟩
  | .hbm, ⟨69, _⟩ => ⟨S50x2, .f32⟩
  | .hbm, ⟨70, _⟩ => ⟨S100000x2, .f32⟩
  | .hbm, ⟨71, _⟩ => ⟨S1x2, .f32⟩
  | .hbm, ⟨72, _⟩ => ⟨S100000x2, .f32⟩
  | .hbm, ⟨73, _⟩ => ⟨S100000x2, .f32⟩
  | _, _ => ⟨S5000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  slices_S2x80000000_S1x80000000_0_0 : S2x80000000.Slices ![0, 0] S1x80000000
  shapeCasts_S1x80000000_S80000000 : S1x80000000.ShapeCasts S80000000
  concatenates_S80000000_S5000000_S85000000_d0 : Shape.Concatenates [S80000000, S5000000] S85000000 0
  slices_S2x80000000_S1x80000000_1_0 : S2x80000000.Slices ![1, 0] S1x80000000
  bcast_S_S85000000 : S_.BroadcastsInDim S85000000 (![] : Fin 0 → Fin S85000000.rank)
  bcast_S_S5000000 : S_.BroadcastsInDim S5000000 (![] : Fin 0 → Fin S5000000.rank)
  bcast_S85000000_S85000000x1_0 : S85000000.BroadcastsInDim S85000000x1 (![0] : Fin 1 → Fin S85000000x1.rank)
  bcast_S_S5000000x1 : S_.BroadcastsInDim S5000000x1 (![] : Fin 0 → Fin S5000000x1.rank)
  bcast_S1_S1x1_1 : S1.BroadcastsInDim S1x1 (![1] : Fin 1 → Fin S1x1.rank)
  bcast_S1x1_S5000000x1_0_1 : S1x1.BroadcastsInDim S5000000x1 (![0, 1] : Fin 2 → Fin S5000000x1.rank)
  shapeCasts_S5000000x1_S100000x50 : S5000000x1.ShapeCasts S100000x50
  transposes_S2x50_S50x2_1_0 : S2x50.Transposes [1, 0] S50x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S5000000x1_S1x1_S5000000x1_1_0_0_1_n_n_wf : DotDims.WF S5000000x1 S1x1 S5000000x1 [1] [0] [0] [1] [] []
  scatter_S5000000_S85000000x1_S85000000_n_0_0_1_wf : ScatterDims.WF S5000000 S85000000x1 S85000000 [] [0] [0] 1
  gather_S5000000_S85000000x1_S85000000_n_0_n_n_0_1_1_wf : GatherDims.WF S5000000 S85000000x1 S85000000 [] [0] [] [0] [] 1 ![1]
  gather_S5000000x1_S85000000x1_S85000000x1_1_0_n_n_0_1_11_wf : GatherDims.WF S5000000x1 S85000000x1 S85000000x1 [1] [0] [] [0] [] 1 ![1, 1]
  scatter_S5000000x1_S85000000x1_S85000000x1_1_0_0_1_wf : ScatterDims.WF S5000000x1 S85000000x1 S85000000x1 [1] [0] [0] 1
  dot_S100000x50_S50x2_S100000x2_1_0_0_1_n_n_wf : DotDims.WF S100000x50 S50x2 S100000x2 [1] [0] [0] [1] [] []

variable [Facts₀]

def dot_S5000000x1_S1x1_S5000000x1_1_0_0_1_n_n : DotDims S5000000x1 S1x1 S5000000x1 where
  lhsContracting := [1]
  rhsContracting := [0]
  lhsNonContracting := [0]
  rhsNonContracting := [1]
  lhsBatch := []
  rhsBatch := []
  wf := dot_S5000000x1_S1x1_S5000000x1_1_0_0_1_n_n_wf
def scatter_S5000000_S85000000x1_S85000000_n_0_0_1 : ScatterDims S5000000 S85000000x1 S85000000 where
  updateWindowDims := []
  insertedWindowDims := [0]
  scatterDimsToOperandDims := [0]
  indexVectorDim := 1
  wf := scatter_S5000000_S85000000x1_S85000000_n_0_0_1_wf
def gather_S5000000_S85000000x1_S85000000_n_0_n_n_0_1_1 : GatherDims S5000000 S85000000x1 S85000000 where
  offsetDims := []
  collapsedSliceDims := [0]
  operandBatchingDims := []
  startIndicesBatchingDims := []
  startIndexMap := [0]
  indexVectorDim := 1
  sliceSizes := ![1]
  wf := gather_S5000000_S85000000x1_S85000000_n_0_n_n_0_1_1_wf
def gather_S5000000x1_S85000000x1_S85000000x1_1_0_n_n_0_1_11 : GatherDims S5000000x1 S85000000x1 S85000000x1 where
  offsetDims := [1]
  collapsedSliceDims := [0]
  operandBatchingDims := []
  startIndicesBatchingDims := []
  startIndexMap := [0]
  indexVectorDim := 1
  sliceSizes := ![1, 1]
  wf := gather_S5000000x1_S85000000x1_S85000000x1_1_0_n_n_0_1_11_wf
def scatter_S5000000x1_S85000000x1_S85000000x1_1_0_0_1 : ScatterDims S5000000x1 S85000000x1 S85000000x1 where
  updateWindowDims := [1]
  insertedWindowDims := [0]
  scatterDimsToOperandDims := [0]
  indexVectorDim := 1
  wf := scatter_S5000000x1_S85000000x1_S85000000x1_1_0_0_1_wf
def dot_S100000x50_S50x2_S100000x2_1_0_0_1_n_n : DotDims S100000x50 S50x2 S100000x2 where
  lhsContracting := [1]
  rhsContracting := [0]
  lhsNonContracting := [0]
  rhsNonContracting := [1]
  lhsBatch := []
  rhsBatch := []
  wf := dot_S100000x50_S50x2_S100000x2_1_0_0_1_n_n_wf

class Facts : Prop extends Facts₀ where

variable [Facts]
-- ==== Proof.GcnSpec.lean ====
/-
  The two programs of this certificate as functions of the six argument arrays, at the extended reals.

  A graph of 5,000,000 nodes and 80,000,000 directed edges: `ei` holds the edges' source words (row 0) and target
  words (row 1), read as signed 32-bit integers. One graph-convolution layer with self loops, then a linear
  classifier on groups of 50 consecutive nodes:

    xw n   = x n · w                                   the node's feature times the layer's weight
    deg n  = (number of edges whose target word is n) + 1         the self loop counts once
    dis n  = 1 / sqrt (max (deg n) 1)  where deg n > 0, else 0
    h n    = Σ over edges e with target word n of  xw (src e) · dis (src e) · dis (tgt e)   +   xw n · dis n · dis n
    out g c = Σ k < 50, (h (50 g + k) + b) · fw c k  +  fb c

  An edge whose target word is not a node (negative, or 5,000,000 and above) is dropped by both sums; where a word is
  used to READ a node's value (`node`), a negative word first wraps by the node count and the result is clamped into
  the node range, as the host's gather does.

  The KERNEL program computes exactly the formulas above (`degK`, `hK`, `outK`): the self loop is the `+ 1` and the
  last summand of `h`. The REFERENCE lists the 5,000,000 self loops as 5,000,000 further edges n → n behind the real
  ones (`src'`, `tgt'` over 85,000,000 positions) and sums over all of them (`degR`, `hR`, `outR`), multiplying
  `xw · (dis · dis)` where the kernel multiplies `(xw · dis) · dis`, and adding `b` before the regrouping.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- The float words `0.0` and `1.0` as both programs spell them (never evaluated: the same word on both sides). -/
abbrev zero : EReal := Ideal.ofBits .f32 0x00000000#32
abbrev one : EReal := Ideal.ofBits .f32 0x3F800000#32

/-- `1 / sqrt (max d 1)` where `d > 0`, else `0`. -/
def disOf (d : EReal) : EReal := Scalar.select (Ideal.cmp .ogt d zero) (Ideal.rsqrt (max d one)) zero

/-- A negative index word wraps by the node count (what `x[idx]` does before it gathers). -/
def wrap (v : BitVec 32) : BitVec 32 := Scalar.select (IntOp.cmpi .slt v 0#32) (IntOp.addi v 5000000#32) v

/-- The node whose value a gather reads for the index word `v`: wrapped, read signed, clamped into the node range. -/
def node (v : BitVec 32) : Fin 5000000 := ⟨min (wrap v).toInt.toNat (5000000 - 1), by omega⟩

/-- The scatter's test: the word `v`, read signed and neither wrapped nor clamped, is node `n`. -/
abbrev hits (v : BitVec 32) (n : Fin 5000000) : Prop := v.toInt = (n.val : Int)

/-- Node `50 g + k`: member `k` of group `g`. -/
def member (g : Fin 100000) (k : Fin 50) : Fin 5000000 := ⟨50 * g.val + k.val, by omega⟩

section
variable (x : (⟨2, ![5000000, 1]⟩ : Shape).Idx → EReal) (ei : IVec ⟨2, ![2, 80000000]⟩ 32)
  (w : (⟨2, ![1, 1]⟩ : Shape).Idx → EReal) (b : (⟨1, ![1]⟩ : Shape).Idx → EReal)
  (fw : (⟨2, ![2, 50]⟩ : Shape).Idx → EReal) (fb : (⟨1, ![2]⟩ : Shape).Idx → EReal)

/-- Edge `j`'s source and target words. -/
def src (j : Fin 80000000) : BitVec 32 := ei (ix2 0 j)
def tgt (j : Fin 80000000) : BitVec 32 := ei (ix2 1 j)

/-- The node's feature times the layer's weight. -/
def xw (n : Fin 5000000) : EReal := x (ix2 n 0) * w (ix2 0 0)

/-! ## The kernel program: the self loop added analytically -/

def degK (n : Fin 5000000) : EReal := (zero + ∑ j : Fin 80000000, if hits (tgt ei j) n then one else 0) + one
def disK (n : Fin 5000000) : EReal := disOf (degK ei n)
def msgK (j : Fin 80000000) : EReal :=
  (xw x w (node (src ei j)) * disK ei (node (src ei j))) * disK ei (node (tgt ei j))
def hK (n : Fin 5000000) : EReal :=
  (zero + ∑ j : Fin 80000000, if hits (tgt ei j) n then msgK x ei w j else 0) + (xw x w n * disK ei n) * disK ei n
def outK (i : (⟨2, ![100000, 2]⟩ : Shape).Idx) : EReal :=
  (∑ k : Fin 50, (hK x ei w (member (i 0) k) + b (ix1 0)) * fw (ix2 (i 1) k)) + fb (ix1 (i 1))

/-! ## The reference program: the self loops listed behind the edges -/

/-- Position `j` of the extended edge list: edge `j`, or the self loop of node `j − 80,000,000`. -/
def src' (j : Fin 85000000) : BitVec 32 :=
  if h : j.val < 80000000 then src ei ⟨j.val, h⟩ else BitVec.ofNat 32 (j.val - 80000000)
def tgt' (j : Fin 85000000) : BitVec 32 :=
  if h : j.val < 80000000 then tgt ei ⟨j.val, h⟩ else BitVec.ofNat 32 (j.val - 80000000)

def degR (n : Fin 5000000) : EReal := zero + ∑ j : Fin 85000000, if hits (tgt' ei j) n then one else 0
def disR (n : Fin 5000000) : EReal := disOf (degR ei n)
def msgR (j : Fin 85000000) : EReal :=
  xw x w (node (src' ei j)) * (disR ei (node (src' ei j)) * disR ei (node (tgt' ei j)))
def hR (n : Fin 5000000) : EReal :=
  (zero + ∑ j : Fin 85000000, if hits (tgt' ei j) n then msgR x ei w j else 0) + b (ix1 0)
def outR (i : (⟨2, ![100000, 2]⟩ : Shape).Idx) : EReal :=
  (∑ k : Fin 50, hR x ei w b (member (i 0) k) * fw (ix2 (i 1) k)) + fb (ix1 (i 1))

end

end Cert.GcnSpec

end
-- ==== Proof.LibIndexOps.lean ====
import Idealize.ShloMosaic.PureOps.Ideal
import Idealize.ShloMosaic.PureOps.Ideal.Laws
import Idealize.ShloMosaic.Lib.ValueIdx
import Idealize.ShloMosaic.Lib.Pipeline.Value

/-!
# Host scatter-add, gather and concatenation read at an index, for flat arrays

For a flat array `x : [N]`, an integer array `idx : [M, 1]` and updates `upd : [M]`:
* `x.at[idx].add(upd)` at `n` is `x n` plus the sum of the `upd j` whose index word `idx[j, 0]`, read signed, is `n`
  (`scatterAddFlat_apply`; the one-column form `[N, 1]`, `[M, 1]`: `scatterAddCol_apply`);
* `x[idx]` at `j` is `x` at `idx[j, 0]` read signed and clamped into `[0, N − 1]` (`gatherFlat_apply`; whole rows of
  `x : [N, C]`: `gatherRows_apply`);
* a concatenation of two flat arrays at `j` is the first below its extent, else the second (`concatFlat_apply`), two
  one-column arrays side by side at `(n, c)` are the first in column 0 and the second in column 1
  (`concatCols_apply`), and a sum over `A + B` terms splits at `A` (`sum_fin_append`).
Each set of dimension numbers is an `abbrev` taking its conditions as a parameter, so a record with the same literal
lists is that `abbrev` by definition. No proof enumerates an extent.
-/

noncomputable section

open scoped BigOperators

namespace Cert.LibIndexOps

open Idealize.ShloMosaic Idealize.ShloMosaic.ValueIdx

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter-add into a flat array: `x.at[idx].add(upd)` for `x : [N]`, `idx : [M, 1]`, `upd : [M]` -/

/-- The dimension numbers of a scatter of `M` scalar updates into a flat operand `[N]` at the scatter indices
    `[M, 1]`: no window axis, the operand's one axis inserted and named by the index vector's one component. -/
abbrev scatFlat (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j`'s window starts at its index word `idx[j, 0]`, read signed. -/
theorem scatFlat_start {N M w : Nat} (wf : ScatterDims.WF ⟨1, ![N]⟩ ⟨2, ![M, 1]⟩ ⟨1, ![M]⟩ [] [0] [0] 1)
    (idx : IVec ⟨2, ![M, 1]⟩ w) (j : Fin M) :
    (scatFlat N M wf).start (ix1 j) idx 0 = (idx (ix2 j 0)).toInt := by
  unfold ScatterDims.start
  rw [dif_pos (show (0 : Fin 1) ∈ (scatFlat N M wf).scatterDimsToOperandDims from List.mem_singleton.mpr rfl)]
  have hsi : (scatFlat N M wf).siIdx (ix1 j) ⟨List.idxOf (0 : Fin 1) (scatFlat N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A scalar update has no window coordinate. -/
theorem scatFlat_window {N M : Nat} (wf : ScatterDims.WF ⟨1, ![N]⟩ ⟨2, ![M, 1]⟩ ⟨1, ![M]⟩ [] [0] [0] 1)
    (j : (⟨1, ![M]⟩ : Shape).Idx) : (scatFlat N M wf).window j 0 = 0 := by
  unfold ScatterDims.window
  rw [dif_neg]
  simp [ScatterDims.sKept, Shape.kept]

/-- Update `j` lands on element `n` exactly when its index word, read signed, is `n`. -/
theorem scatFlat_resultIdx_iff {N M w : Nat} (wf : ScatterDims.WF ⟨1, ![N]⟩ ⟨2, ![M, 1]⟩ ⟨1, ![M]⟩ [] [0] [0] 1)
    (idx : IVec ⟨2, ![M, 1]⟩ w) (j : Fin M) (n : Fin N) :
    (scatFlat N M wf).resultIdx? (ix1 j) idx = some (ix1 n) ↔ (idx (ix2 j 0)).toInt = (n.val : Int) := by
  have hs := scatFlat_start wf idx j
  have hw := scatFlat_window wf (ix1 j)
  unfold ScatterDims.resultIdx?
  split
  · next h =>
    have h0 := h 0
    rw [hs, hw] at h0
    rw [Option.some.injEq]
    constructor
    · intro e
      have e0 := congrArg (fun f => ((f 0).val : Nat)) e
      simp only [hs, hw] at e0
      change _ = n.val at e0
      omega
    · intro e
      funext a
      obtain rfl : a = 0 := Subsingleton.elim _ _
      refine Fin.ext ?_
      show ((scatFlat N M wf).start (ix1 j) idx 0 + ((scatFlat N M wf).window (ix1 j) 0 : Int)).toNat = n.val
      rw [hs, hw, e]; simp
  · next h =>
    constructor
    · intro e; cases e
    · intro e
      exfalso; apply h
      intro a
      obtain rfl : a = 0 := Subsingleton.elim _ _
      rw [hs, hw, e]
      have hn : (n.val : Int) < ((⟨1, ![N]⟩ : Shape).size 0 : Nat) := by
        have : n.val < N := n.isLt
        exact_mod_cast this
      constructor
      · simp
      · simpa using hn

/-- THE SCATTER-ADD READ AT `n`: the operand's element plus the sum of the updates whose index word, read signed, is
    `n`; an update whose word is negative or at least `N` lands on no element and is dropped. -/
theorem scatterAddFlat_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (scatFlat N M wf) x idx upd (ix1 n)
      = x (ix1 n) + ∑ j : Fin M, if (idx (ix2 j 0)).toInt = (n.val : Int) then upd (ix1 j) else 0 := by
  unfold Ideal.hostScatterAdd
  congr 1
  rw [Finset.sum_filter, sum_idx1]
  refine Finset.sum_congr rfl fun j _ => ?_
  exact if_congr (scatFlat_resultIdx_iff wf idx j n) rfl rfl

/-! ## A gather from a flat array: `x[idx]` for `x : [N]`, `idx : [M, 1]` -/

/-- The dimension numbers of a gather of `M` scalars out of a flat operand `[N]` at the start indices `[M, 1]`:
    no offset axis, the operand's one axis collapsed (slice size 1) and named by the index vector's one component. -/
abbrev gathFlat (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `j`: the operand at the start index `idx[j, 0]`, read signed and clamped into `[0, N − 1]`. -/
theorem gatherFlat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (gathFlat N M wf) x idx (ix1 j)
      = x (ix1 ⟨min (idx (ix2 j 0)).toInt.toNat (N - 1), by omega⟩) := by
  unfold Host.gather
  congr 1
  funext a
  obtain rfl : a = 0 := Subsingleton.elim _ _
  refine Fin.ext ?_
  show (gathFlat N M wf).start (ix1 j) idx 0 + (gathFlat N M wf).batchCoord (ix1 j) 0
    + (gathFlat N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N M wf).startIndexMap from List.mem_singleton.mpr rfl)]
  have hsi : (gathFlat N M wf).siIdx (ix1 j) ⟨List.idxOf (0 : Fin 1) (gathFlat N M wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

/-! ## A scatter-add into a one-column array: `x.at[idx].add(upd)` for `x : [N, 1]`, `idx : [M, 1]`, `upd : [M, 1]` -/

/-- The dimension numbers of a scatter of `M` one-element rows into an operand `[N, 1]` at the scatter indices
    `[M, 1]`: the updates' axis 1 is the window axis (onto the operand's axis 1), the operand's axis 0 is inserted
    and named by the index vector's one component. -/
abbrev scatCol (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- On the row axis update `(j, 0)`'s window starts at its index word `idx[j, 0]`, read signed. -/
theorem scatCol_start0 {N M w : Nat} (wf : ScatterDims.WF ⟨2, ![N, 1]⟩ ⟨2, ![M, 1]⟩ ⟨2, ![M, 1]⟩ [1] [0] [0] 1)
    (idx : IVec ⟨2, ![M, 1]⟩ w) (j : Fin M) :
    (scatCol N M wf).start (ix2 j 0) idx 0 = (idx (ix2 j 0)).toInt := by
  unfold ScatterDims.start
  rw [dif_pos (show (0 : Fin 2) ∈ (scatCol N M wf).scatterDimsToOperandDims from List.mem_singleton.mpr rfl)]
  have hsi : (scatCol N M wf).siIdx (ix2 j 0) ⟨List.idxOf (0 : Fin 2) (scatCol N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- On the column axis, which the index vector does not name, the window starts at 0. -/
theorem scatCol_start1 {N M w : Nat} (wf : ScatterDims.WF ⟨2, ![N, 1]⟩ ⟨2, ![M, 1]⟩ ⟨2, ![M, 1]⟩ [1] [0] [0] 1)
    (idx : IVec ⟨2, ![M, 1]⟩ w) (j : (⟨2, ![M, 1]⟩ : Shape).Idx) :
    (scatCol N M wf).start j idx 1 = 0 := by
  unfold ScatterDims.start
  rw [dif_neg]
  simp

/-- The row axis is inserted: no window coordinate there. -/
theorem scatCol_window0 {N M : Nat} (wf : ScatterDims.WF ⟨2, ![N, 1]⟩ ⟨2, ![M, 1]⟩ ⟨2, ![M, 1]⟩ [1] [0] [0] 1)
    (j : (⟨2, ![M, 1]⟩ : Shape).Idx) : (scatCol N M wf).window j 0 = 0 := by
  unfold ScatterDims.window
  rw [dif_neg]
  simp [ScatterDims.sKept, Shape.kept]

/-- The column axis has extent 1: the window coordinate there is 0. -/
theorem scatCol_window1 {N M : Nat} (wf : ScatterDims.WF ⟨2, ![N, 1]⟩ ⟨2, ![M, 1]⟩ ⟨2, ![M, 1]⟩ [1] [0] [0] 1)
    (j : Fin M) : (scatCol N M wf).window (ix2 j 0) 1 = 0 := by
  unfold ScatterDims.window
  split
  · rfl
  · rfl

/-- Update `(j, 0)` lands on element `(n, 0)` exactly when its index word, read signed, is `n`. -/
theorem scatCol_resultIdx_iff {N M w : Nat} (wf : ScatterDims.WF ⟨2, ![N, 1]⟩ ⟨2, ![M, 1]⟩ ⟨2, ![M, 1]⟩ [1] [0] [0] 1)
    (idx : IVec ⟨2, ![M, 1]⟩ w) (j : Fin M) (n : Fin N) :
    (scatCol N M wf).resultIdx? (ix2 j 0) idx = some (ix2 n 0) ↔ (idx (ix2 j 0)).toInt = (n.val : Int) := by
  have hs0 := scatCol_start0 wf idx j
  have hs1 := scatCol_start1 wf idx (ix2 j 0)
  have hw0 := scatCol_window0 wf (ix2 j 0)
  have hw1 := scatCol_window1 wf j
  unfold ScatterDims.resultIdx?
  split
  · next h =>
    have h0 := h 0
    rw [hs0, hw0] at h0
    rw [Option.some.injEq]
    constructor
    · intro e
      have e0 := congrArg (fun f => ((f 0).val : Nat)) e
      simp only [hs0, hw0] at e0
      change _ = n.val at e0
      omega
    · intro e
      funext a
      revert a
      refine Fin.forall_fin_two.2 ⟨?_, ?_⟩
      · refine Fin.ext ?_
        show ((scatCol N M wf).start (ix2 j 0) idx 0 + ((scatCol N M wf).window (ix2 j 0) 0 : Int)).toNat = n.val
        rw [hs0, hw0, e]; simp
      · refine Fin.ext ?_
        show ((scatCol N M wf).start (ix2 j 0) idx 1 + ((scatCol N M wf).window (ix2 j 0) 1 : Int)).toNat = 0
        rw [hs1, hw1]; rfl
  · next h =>
    constructor
    · intro e; cases e
    · intro e
      exfalso; apply h
      refine Fin.forall_fin_two.2 ⟨?_, ?_⟩
      · rw [hs0, hw0, e]
        have hn : (n.val : Int) < ((⟨2, ![N, 1]⟩ : Shape).size 0 : Nat) := by
          have : n.val < N := n.isLt
          exact_mod_cast this
        constructor
        · simp
        · simpa using hn
      · rw [hs1, hw1]
        refine ⟨by simp, ?_⟩
        show (0 : Int) + ((0 : Nat) : Int) < ((1 : Nat) : Int)
        simp

/-- THE SCATTER-ADD READ AT `(n, 0)`: the operand's element plus the sum of the updates whose index word, read
    signed, is `n`; an update whose word is negative or at least `N` lands on no element and is dropped. -/
theorem scatterAddCol_apply {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (n : Fin N) :
    Ideal.hostScatterAdd (scatCol N M wf) x idx upd (ix2 n 0)
      = x (ix2 n 0) + ∑ j : Fin M, if (idx (ix2 j 0)).toInt = (n.val : Int) then upd (ix2 j 0) else 0 := by
  unfold Ideal.hostScatterAdd
  congr 1
  rw [Finset.sum_filter, sum_idx2]
  refine Finset.sum_congr rfl fun j _ => ?_
  rw [Fin.sum_univ_one]
  exact if_congr (scatCol_resultIdx_iff wf idx j n) rfl rfl

/-! ## A gather of rows: `x[idx]` for `x : [N, C]`, `idx : [M, 1]` -/

/-- The dimension numbers of a gather of `M` whole rows out of an operand `[N, C]` at the start indices `[M, 1]`:
    the result's axis 1 is the offset axis (the operand's axis 1, slice size `C`), the operand's axis 0 is collapsed
    (slice size 1) and named by the index vector's one component. -/
abbrev gathRows (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(j, c)`: column `c` of the operand's row at the start index `idx[j, 0]`, read signed and
    clamped into `[0, N − 1]`. -/
theorem gatherRows_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (c : Fin C) :
    Host.gather (gathRows N C M wf) x idx (ix2 j c)
      = x (ix2 ⟨min (idx (ix2 j 0)).toInt.toNat (N - 1), by omega⟩ c) := by
  unfold Host.gather
  congr 1
  funext a
  revert a
  refine Fin.forall_fin_two.2 ⟨?_, ?_⟩
  · refine Fin.ext ?_
    show (gathRows N C M wf).start (ix2 j c) idx 0 + (gathRows N C M wf).batchCoord (ix2 j c) 0
      + (gathRows N C M wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows N C M wf).startIndexMap from List.mem_singleton.mpr rfl)]
    have hsi : (gathRows N C M wf).siIdx (ix2 j c) ⟨List.idxOf (0 : Fin 2) (gathRows N C M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · refine Fin.ext ?_
    show (gathRows N C M wf).start (ix2 j c) idx 1 + (gathRows N C M wf).batchCoord (ix2 j c) 1
      + (gathRows N C M wf).offCoord (ix2 j c) 1 = c.val
    rw [GatherDims.batchCoord_eq_zero _ _ _ List.not_mem_nil]
    have hst : (gathRows N C M wf).start (ix2 j c) idx 1 = 0 := by
      unfold GatherDims.start
      rw [dif_neg]
      simp
    have hoff : (gathRows N C M wf).offCoord (ix2 j c) 1 = c.val := by
      unfold GatherDims.offCoord
      split
      · rfl
      · next h => exact absurd ((GatherDims.mem_sKept _ _).2 ⟨by simp, List.not_mem_nil⟩) h
    rw [hst, hoff]
    simp

/-! ## Concatenations at an index, and a sum over a concatenated range -/

/-- The extents of two flat pieces laid end to end add up to the whole's. -/
theorem concatFlat_total {A B T : Nat} (h : Shape.Concatenates [⟨1, ![A]⟩, ⟨1, ![B]⟩] ⟨1, ![T]⟩ 0) : A + B = T := by
  have e : A + (B + 0) = T := h.2.2
  omega

/-- A CONCATENATION OF TWO FLAT ARRAYS READ AT `j`: the first piece at `j` below its extent `A`, else the second
    piece at `j − A`. -/
theorem concatFlat_apply {α : Type} (A B T : Nat) (a : (⟨1, ![A]⟩ : Shape).Idx → α) (b : (⟨1, ![B]⟩ : Shape).Idx → α)
    (h : Shape.Concatenates [⟨1, ![A]⟩, ⟨1, ![B]⟩] ⟨1, ![T]⟩ 0) (j : Fin T) :
    concatenate ⟨1, ![T]⟩ 0 [⟨⟨1, ![A]⟩, a⟩, ⟨⟨1, ![B]⟩, b⟩] h (ix1 j)
      = if hj : j.val < A then a (ix1 ⟨j.val, hj⟩)
        else b (ix1 ⟨j.val - A, by have := concatFlat_total h; have := j.isLt; omega⟩) := by
  by_cases hj : j.val < A
  · rw [dif_pos hj]
    refine concatenate_pair_apply_left 0 a b h (ix1 j) rfl (ix1 ⟨j.val, hj⟩) (fun k => ?_)
    obtain rfl : k = 0 := Subsingleton.elim _ _
    rfl
  · rw [dif_neg hj]
    refine concatenate_pair_apply_right 0 a b h (ix1 j) rfl rfl (ix1 ⟨j.val - A, _⟩)
      (fun k hk => absurd (Subsingleton.elim _ _) hk) ?_
    show j.val - A + A = j.val
    omega

/-- A sum over a range of `A + B` terms is the sum over the first `A` plus the sum over the last `B`. -/
theorem sum_fin_append (A B T : Nat) (hT : A + B = T) (f : Fin T → EReal) :
    ∑ j : Fin T, f j = ∑ j : Fin A, f ⟨j.val, by omega⟩ + ∑ n : Fin B, f ⟨A + n.val, by omega⟩ := by
  subst hT
  rw [Fin.sum_univ_add]
  rfl

/-- A CONCATENATION OF TWO ONE-COLUMN ARRAYS SIDE BY SIDE READ AT `(n, c)`: the first piece's row `n` in column 0,
    the second piece's in column 1. -/
theorem concatCols_apply {α : Type} (N : Nat) (a b : (⟨2, ![N, 1]⟩ : Shape).Idx → α)
    (h : Shape.Concatenates [⟨2, ![N, 1]⟩, ⟨2, ![N, 1]⟩] ⟨2, ![N, 2]⟩ 1) (n : Fin N) (c : Fin 2) :
    concatenate ⟨2, ![N, 2]⟩ 1 [⟨⟨2, ![N, 1]⟩, a⟩, ⟨⟨2, ![N, 1]⟩, b⟩] h (ix2 n c)
      = if c.val = 0 then a (ix2 n 0) else b (ix2 n 0) := by
  revert c
  refine Fin.forall_fin_two.2 ⟨?_, ?_⟩
  · rw [if_pos (show ((0 : Fin 2).val = 0) from rfl)]
    exact concatenate_pair_apply_left 1 a b h (ix2 n 0) rfl (ix2 n 0) (Fin.forall_fin_two.2 ⟨rfl, rfl⟩)
  · rw [if_neg (show ¬ ((1 : Fin 2).val = 0) by decide)]
    exact concatenate_pair_apply_right 1 a b h (ix2 n 1) rfl rfl (ix2 n 0)
      (Fin.forall_fin_two.2 ⟨fun _ => rfl, fun hk => absurd rfl hk⟩) rfl

/-! ## The lemmas instantiated at extents of tens of millions -/

/-- A record spelt with the literal lists and its own conditions is, by definition, `scatFlat` at those conditions. -/
example (wf : ScatterDims.WF ⟨1, ![5000000]⟩ ⟨2, ![85000000, 1]⟩ ⟨1, ![85000000]⟩ [] [0] [0] 1) :
    ({ updateWindowDims := [], insertedWindowDims := [0], scatterDimsToOperandDims := [0], indexVectorDim := 1,
       wf := wf } : ScatterDims ⟨1, ![5000000]⟩ ⟨2, ![85000000, 1]⟩ ⟨1, ![85000000]⟩)
      = scatFlat 5000000 85000000 wf := rfl

/-- The scatter-add read at 5 000 000 nodes and 85 000 000 updates. -/
example (wf : ScatterDims.WF ⟨1, ![5000000]⟩ ⟨2, ![85000000, 1]⟩ ⟨1, ![85000000]⟩ [] [0] [0] 1)
    (x : (⟨1, ![5000000]⟩ : Shape).Idx → EReal) (idx : IVec ⟨2, ![85000000, 1]⟩ 32)
    (upd : (⟨1, ![85000000]⟩ : Shape).Idx → EReal) (n : Fin 5000000) :
    Ideal.hostScatterAdd (scatFlat 5000000 85000000 wf) x idx upd (ix1 n)
      = x (ix1 n) + ∑ j : Fin 85000000, if (idx (ix2 j 0)).toInt = (n.val : Int) then upd (ix1 j) else 0 :=
  scatterAddFlat_apply wf x idx upd n

/-- The gather read at 5 000 000 nodes and 85 000 000 start indices. -/
example (wf : GatherDims.WF ⟨1, ![5000000]⟩ ⟨2, ![85000000, 1]⟩ ⟨1, ![85000000]⟩ [] [0] [] [0] [] 1 ![1])
    (x : (⟨1, ![5000000]⟩ : Shape).Idx → EReal) (idx : IVec ⟨2, ![85000000, 1]⟩ 32) (j : Fin 85000000) :
    Host.gather (gathFlat 5000000 85000000 wf) x idx (ix1 j)
      = x (ix1 ⟨min (idx (ix2 j 0)).toInt.toNat (5000000 - 1), by omega⟩) :=
  gatherFlat_apply (by norm_num) wf x idx j

/-- The sum over 85 000 000 terms split at 80 000 000. -/
example (f : Fin 85000000 → EReal) :
    ∑ j : Fin 85000000, f j
      = ∑ j : Fin 80000000, f ⟨j.val, by omega⟩ + ∑ n : Fin 5000000, f ⟨80000000 + n.val, by omega⟩ :=
  sum_fin_append 80000000 5000000 85000000 (by norm_num) f

end Cert.LibIndexOps

end
-- ==== Proof.RefIsSpec.lean ====
/-
  The reference program's result, read off its run one operation at a time, IS `Cert.GcnSpec.outR` of the six argument
  arrays: the extended edge list (the edges, then one self loop per node) is the concatenation the program builds;
  the degree is its scatter-add of ones at the extended target words; `dis` is the select / rsqrt / max of it; each of
  the three gathers reads node `node (word)`; the message is `xw · (dis · dis)`; the aggregate is the scatter-add of the
  messages at the extended target words; then the bias, the regrouping 100000 × 50, the product with the transposed
  classifier matrix and its bias.
-/
import proofs.«174288_j48180943127420_2_alg».proof.Proof.RefReadP
import proofs.«174288_j48180943127420_2_alg».proof.Proof.GcnSpec
import proofs.«174288_j48180943127420_2_alg».proof.Proof.LibIndexOps

noncomputable section

namespace Cert.ReferenceIdeal.RefSpec

open Cert.ReferenceIdeal Cert.ReferenceIdeal.Gen Cert.ReferenceIdeal.ReadP Cert.GcnSpec Cert.LibIndexOps
open Idealize.ShloMosaic Idealize.ShloMosaic.ValueIdx

variable (x0 : (⟨S5000000x1, .f32⟩ : BufTy).Contents (Elt Ideal)) (x1 : (⟨S2x80000000, .i32⟩ : BufTy).Contents (Elt Ideal))
  (x2 : (⟨S1x1, .f32⟩ : BufTy).Contents (Elt Ideal)) (x3 : (⟨S1, .f32⟩ : BufTy).Contents (Elt Ideal))
  (x4 : (⟨S2x50, .f32⟩ : BufTy).Contents (Elt Ideal)) (x5 : (⟨S2, .f32⟩ : BufTy).Contents (Elt Ideal))

/-! ## The extended edge list -/

/-- Flat position `j` of row 0 of the edge array, through the slice and the reshape. -/
theorem idx_row0 (j : Fin 80000000) : idx_main_v2 (idx_main_v3 (ix1 j)) = ix2 0 j := by
  funext a; refine Fin.ext ?_
  match a with
  | ⟨0, _⟩ => rfl
  | ⟨1, _⟩ => exact Nat.mod_eq_of_lt j.isLt

/-- Flat position `j` of row 1 of the edge array, through the slice and the reshape. -/
theorem idx_row1 (j : Fin 80000000) : idx_main_v5 (idx_main_v6 (ix1 j)) = ix2 1 j := by
  funext a; refine Fin.ext ?_
  match a with
  | ⟨0, _⟩ => rfl
  | ⟨1, _⟩ => exact Nat.mod_eq_of_lt j.isLt

/-- The extended source words: the edges' source words, then each node's own number. -/
theorem srcs_apply (j : Fin 85000000) : val_main_v4 (F := Ideal) x1 (ix1 j) = src' x1 j := by
  unfold val_main_v4
  refine (concatFlat_apply 80000000 5000000 85000000 _ _ _ j).trans ?_
  unfold src'
  by_cases hj : j.val < 80000000
  · rw [dif_pos hj, dif_pos hj, val_main_v3_apply, val_main_v2_apply, idx_row0]; rfl
  · rw [dif_neg hj, dif_neg hj]; rfl

/-- The extended target words. -/
theorem tgts_apply (j : Fin 85000000) : val_main_v7 (F := Ideal) x1 (ix1 j) = tgt' x1 j := by
  unfold val_main_v7
  refine (concatFlat_apply 80000000 5000000 85000000 _ _ _ j).trans ?_
  unfold tgt'
  by_cases hj : j.val < 80000000
  · rw [dif_pos hj, dif_pos hj, val_main_v6_apply, val_main_v5_apply, idx_row1]; rfl
  · rw [dif_neg hj, dif_neg hj]; rfl

/-- The column of words `[M] → [M, 1]` read at row `j`. -/
theorem idx_col (j : Fin 85000000) : idx_main_v10 (ix2 j 0) = ix1 j := by
  funext a; refine Fin.ext ?_
  match a with
  | ⟨0, _⟩ => rfl

/-! ## The two scatter-adds over the extended edge list, read at a node -/

/-- The flat scatter-add at node `n`: the base there plus the updates whose index word, read signed, is `n`. -/
theorem scatterFlat_ext (x : FVec Ideal S5000000 .f32) (idx : IVec S85000000x1 32) (u : FVec Ideal S85000000 .f32)
    (n : Fin 5000000) :
    Host.scatterAdd (F := Ideal) scatter_S5000000_S85000000x1_S85000000_n_0_0_1 x idx u (ix1 n)
      = x (ix1 n) + ∑ j : Fin 85000000, if (idx (ix2 j 0)).toInt = (n.val : Int) then u (ix1 j) else 0 := by
  unfold Host.scatterAdd
  rw [Ideal.hostScatterAdd_def]
  exact scatterAddFlat_apply scatter_S5000000_S85000000x1_S85000000_n_0_0_1_wf x idx u n

/-- The same for arrays with a trailing axis of extent one. -/
theorem scatterCol_ext (x : FVec Ideal S5000000x1 .f32) (idx : IVec S85000000x1 32) (u : FVec Ideal S85000000x1 .f32)
    (n : Fin 5000000) :
    Host.scatterAdd (F := Ideal) scatter_S5000000x1_S85000000x1_S85000000x1_1_0_0_1 x idx u (ix2 n 0)
      = x (ix2 n 0) + ∑ j : Fin 85000000, if (idx (ix2 j 0)).toInt = (n.val : Int) then u (ix2 j 0) else 0 := by
  unfold Host.scatterAdd
  rw [Ideal.hostScatterAdd_def]
  exact scatterAddCol_apply scatter_S5000000x1_S85000000x1_S85000000x1_1_0_0_1_wf x idx u n

/-! ## The degree and its inverse square root -/

theorem deg_apply (n : Fin 5000000) : val_main_v11 (F := Ideal) x1 (ix1 n) = degR x1 n := by
  unfold val_main_v11
  refine (scatterFlat_ext _ _ _ n).trans ?_
  unfold degR
  refine congrArg₂ (· + ·) rfl (Finset.sum_congr rfl fun j _ => ?_)
  rw [val_main_v10_apply, idx_col, tgts_apply]
  rfl

theorem dis_apply (n : Fin 5000000) : val_main_v17 (F := Ideal) x1 (ix1 n) = disR x1 n := by
  rw [val_main_v17_apply, val_main_v13_apply, val_main_v16_apply, val_main_v15_apply, deg_apply]
  unfold disR
  generalize degR x1 n = d
  rfl

/-! ## The three gathers -/

theorem wrapped_src (j : Fin 85000000) : val_main_v22 (F := Ideal) x1 (ix1 j) = wrap (src' x1 j) := by
  rw [val_main_v22_apply, val_main_v19_apply, val_main_v21_apply, srcs_apply]; rfl
theorem wrapped_tgt (j : Fin 85000000) : val_main_v29 (F := Ideal) x1 (ix1 j) = wrap (tgt' x1 j) := by
  rw [val_main_v29_apply, val_main_v26_apply, val_main_v28_apply, tgts_apply]; rfl
theorem wrapped_src2 (j : Fin 85000000) : val_main_v37 (F := Ideal) x1 (ix1 j) = wrap (src' x1 j) := by
  rw [val_main_v37_apply, val_main_v34_apply, val_main_v36_apply, srcs_apply]; rfl

theorem idx_col23 (j : Fin 85000000) : idx_main_v23 (ix2 j 0) = ix1 j := by
  funext a; refine Fin.ext ?_
  match a with
  | ⟨0, _⟩ => rfl
theorem idx_col30 (j : Fin 85000000) : idx_main_v30 (ix2 j 0) = ix1 j := by
  funext a; refine Fin.ext ?_
  match a with
  | ⟨0, _⟩ => rfl
theorem idx_col38 (j : Fin 85000000) : idx_main_v38 (ix2 j 0) = ix1 j := by
  funext a; refine Fin.ext ?_
  match a with
  | ⟨0, _⟩ => rfl
theorem idx_col40 (j : Fin 85000000) : idx_main_v40 (ix2 j 0) = ix1 j := by
  funext a; refine Fin.ext ?_
  match a with
  | ⟨0, _⟩ => rfl
theorem idx_col43 (j : Fin 85000000) : idx_main_v43 (ix2 j 0) = ix1 j := by
  funext a; refine Fin.ext ?_
  match a with
  | ⟨0, _⟩ => rfl

/-- `dis` gathered at the extended source words. -/
theorem dis_src (j : Fin 85000000) : val_main_v24 (F := Ideal) x1 (ix1 j) = disR x1 (node (src' x1 j)) := by
  unfold val_main_v24
  refine (gatherFlat_apply (by norm_num) gather_S5000000_S85000000x1_S85000000_n_0_n_n_0_1_1_wf
    (val_main_v17 (F := Ideal) x1) (val_main_v23 (F := Ideal) x1) j).trans ?_
  have hw : val_main_v23 (F := Ideal) x1 (ix2 j 0) = wrap (src' x1 j) := by
    rw [val_main_v23_apply, idx_col23, wrapped_src]
  refine (congrArg (fun m => val_main_v17 (F := Ideal) x1 (ix1 m)) (Fin.ext ?_)).trans (dis_apply x1 (node (src' x1 j)))
  show min (val_main_v23 (F := Ideal) x1 (ix2 j 0)).toInt.toNat (5000000 - 1) = (node (src' x1 j)).val
  rw [hw]; rfl

/-- `dis` gathered at the extended target words. -/
theorem dis_tgt (j : Fin 85000000) : val_main_v31 (F := Ideal) x1 (ix1 j) = disR x1 (node (tgt' x1 j)) := by
  unfold val_main_v31
  refine (gatherFlat_apply (by norm_num) gather_S5000000_S85000000x1_S85000000_n_0_n_n_0_1_1_wf
    (val_main_v17 (F := Ideal) x1) (val_main_v30 (F := Ideal) x1) j).trans ?_
  have hw : val_main_v30 (F := Ideal) x1 (ix2 j 0) = wrap (tgt' x1 j) := by
    rw [val_main_v30_apply, idx_col30, wrapped_tgt]
  refine (congrArg (fun m => val_main_v17 (F := Ideal) x1 (ix1 m)) (Fin.ext ?_)).trans (dis_apply x1 (node (tgt' x1 j)))
  show min (val_main_v30 (F := Ideal) x1 (ix2 j 0)).toInt.toNat (5000000 - 1) = (node (tgt' x1 j)).val
  rw [hw]; rfl

/-- The node's feature times the weight: the one-term contraction. -/
theorem xw_apply (n : Fin 5000000) : val_main_v0 (F := Ideal) x0 x2 (ix2 n 0) = xw x0 x2 n := by
  rw [val_main_v0_apply, Fin.sum_univ_one]
  unfold xw
  refine congrArg₂ (· * ·) (congrArg x0 ?_) (congrArg x2 ?_)
  · funext a; refine Fin.ext ?_
    match a with
    | ⟨0, _⟩ => rfl
    | ⟨1, _⟩ => rfl
  · funext a; refine Fin.ext ?_
    match a with
    | ⟨0, _⟩ => rfl
    | ⟨1, _⟩ => rfl

/-- `xw` gathered at the extended source words. -/
theorem xw_src (j : Fin 85000000) : val_main_v39 (F := Ideal) x0 x1 x2 (ix2 j 0) = xw x0 x2 (node (src' x1 j)) := by
  unfold val_main_v39
  refine (gatherRows_apply (by norm_num) gather_S5000000x1_S85000000x1_S85000000x1_1_0_n_n_0_1_11_wf
    (val_main_v0 (F := Ideal) x0 x2) (val_main_v38 (F := Ideal) x1) j 0).trans ?_
  have hw : val_main_v38 (F := Ideal) x1 (ix2 j 0) = wrap (src' x1 j) := by
    rw [val_main_v38_apply, idx_col38, wrapped_src2]
  refine (congrArg (fun m => val_main_v0 (F := Ideal) x0 x2 (ix2 m 0)) (Fin.ext ?_)).trans (xw_apply x0 x2 (node (src' x1 j)))
  show min (val_main_v38 (F := Ideal) x1 (ix2 j 0)).toInt.toNat (5000000 - 1) = (node (src' x1 j)).val
  rw [hw]; rfl

/-! ## The messages, the aggregate, the classifier -/

theorem msg_apply (j : Fin 85000000) : val_main_v41 (F := Ideal) x0 x1 x2 (ix2 j 0) = msgR x0 x1 x2 j := by
  rw [val_main_v41_apply, xw_src, val_main_v40_apply, idx_col40, val_main_v32_apply, dis_src, dis_tgt]
  rfl

theorem h_apply (n : Fin 5000000) : val_main_v47 (F := Ideal) x0 x1 x2 x3 (ix2 n 0) = hR x0 x1 x2 x3 n := by
  rw [val_main_v47_apply]
  unfold hR
  refine congrArg₂ (· + ·) ?_ ?_
  · unfold val_main_v44
    refine (scatterCol_ext _ _ _ n).trans ?_
    refine congrArg₂ (· + ·) rfl (Finset.sum_congr rfl fun j _ => ?_)
    rw [val_main_v43_apply, idx_col43, tgts_apply, msg_apply]
  · rw [val_main_v46_apply, val_main_v45_apply]
    refine congrArg x3 ?_
    funext a; refine Fin.ext ?_
    match a with
    | ⟨0, _⟩ => rfl

/-- The reference's result is `outR` of the arguments. -/
theorem result_eq : val_main_v53 (F := Ideal) x0 x1 x2 x3 x4 x5 = outR x0 x1 x2 x3 x4 x5 := by
  funext i
  rw [val_main_v53_apply, val_main_v50_apply, val_main_v52_apply, val_main_v51_apply]
  unfold outR
  refine congrArg₂ (· + ·) (Finset.sum_congr rfl fun k _ => ?_) (congrArg x5 ?_)
  · rw [val_main_v48_apply, val_main_v49_apply]
    refine congrArg₂ (· * ·) ?_ (congrArg x4 ?_)
    · refine (congrArg (val_main_v47 (F := Ideal) x0 x1 x2 x3) ?_).trans (h_apply x0 x1 x2 x3 (member (i 0) k))
      funext a; refine Fin.ext ?_
      match a with
      | ⟨0, _⟩ => show ((i 0).val * 50 + k.val) / 1 = 50 * (i 0).val + k.val; omega
      | ⟨1, _⟩ => rfl
    · funext a; refine Fin.ext ?_
      match a with
      | ⟨0, _⟩ => rfl
      | ⟨1, _⟩ => rfl
  · funext a; refine Fin.ext ?_
    match a with
    | ⟨0, _⟩ => rfl

end Cert.ReferenceIdeal.RefSpec

end
-- ==== Proof.KernelRun.lean ====
/-
  The idealized kernel program's run with its RESULT named: every weakly fair execution of @main terminates, nothing
  faulting, with the result array (the classifier region's output) at the contents the last segment boundary gives it
  — the second region's arrays after their write-backs, over the host operations between the regions, over the first
  region's arrays, over the host operations before it, from the launch memory — and the six argument arrays as
  launched. The run is the one the frame certificate makes (two regions among stretches of host operations); only the
  final state is read at one more buffer.
-/
import proofs.«174288_j48180943127420_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents `W8 m ρ c main_v53` and the arguments unchanged. -/
theorem run_result : θ_run defs (onTc (τ := τ) (main (F := F))) ⟨m, fun _ => 0, ρ⟩ (fun r => ∀ c : Dev nD,
      r.2.mem ((c.tc : Thread nD τ).loc main_v53) = W8 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v53 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.KernelArrays.lean ====
/-
  The host side of the idealized kernel program as PURE functions of arrays (no memory, no run): what each stretch of
  host operations computes from the arrays it reads, named piece by piece so that the run's composed terms stay small.

    rowArr, colArr   the edges' source and target words (rows 0 and 1 of the edge array), as flat arrays
    degArr           the in-degree counted by a scatter-add of ones at the target words, plus one for the self loop
    padded           a flat node array padded with zeros to 5,242,880 = 40960 · 128 entries (the first region's layout)
    cutArr           a 40960 × 128 output of the first region flattened and cut back to the 5,000,000 nodes
    wrapArr          negative index words wrapped by the node count (before a gather)
    tableArr         the two-column table [xw, dis] the kernel gathers from by source word
    msgArr           per edge: (xw[src] · dis[src]) · dis[tgt]
    hArr             the scatter-add of the messages at the target words, plus the self-loop term, regrouped 100000 × 50
-/
import proofs.«174288_j48180943127420_2_alg».proof.KernelIdeal
import proofs.«174288_j48180943127420_2_alg».proof.Proof.Gen.KernelIdeal
import Idealize.ShloMosaic.PureOps.Ideal

noncomputable section

namespace Cert.KernelIdeal.HostArrays

open Cert.KernelIdeal Cert.KernelIdeal.Gen Idealize.ShloMosaic

abbrev FlatN := FVec Ideal S5000000 .f32
abbrev FlatE := FVec Ideal S80000000 .f32
abbrev WordsE := IVec S80000000 32
abbrev Edges := IVec S2x80000000 32
abbrev Tile := FVec Ideal S40960x128 .f32
abbrev FlatP := FVec Ideal S5242880 .f32

/-- The edges' source words: row 0 of the edge array, flat. -/
def rowArr (e : Edges) : WordsE :=
  shapeCast S80000000 (extractStridedSlice S1x80000000 ![0, 0] e slices_S2x80000000_S1x80000000_0_0) shapeCasts_S1x80000000_S80000000

/-- The edges' target words: row 1 of the edge array, flat. -/
def colArr (e : Edges) : WordsE :=
  shapeCast S80000000 (extractStridedSlice S1x80000000 ![1, 0] e slices_S2x80000000_S1x80000000_1_0) shapeCasts_S1x80000000_S80000000

/-- The degree: ones scatter-added at the target words into zeros, plus one. -/
def degArr (e : Edges) : FlatN :=
  addf (F := Ideal)
    (Host.scatterAdd (F := Ideal) scatter_S5000000_S80000000x1_S80000000_n_0_0_1
      (broadcastInDim S5000000 ![] bcast_S_S5000000 (constant (F := Ideal) S_ .f32 0x00000000#32))
      (broadcastInDim S80000000x1 ![0] bcast_S80000000_S80000000x1_0 (colArr e))
      (broadcastInDim S80000000 ![] bcast_S_S80000000 (constant (F := Ideal) S_ .f32 0x3F800000#32)))
    (broadcastInDim S5000000 ![] bcast_S_S5000000 (constant (F := Ideal) S_ .f32 0x3F800000#32))

/-- A flat node array padded behind with the float of the integer zero, to the first region's 5,242,880 entries. -/
def padded (v : FlatN) : FlatP :=
  pad S5242880 ![0] ![242880] ![0] v (sitofp (F := Ideal) .f32 (constantI S_ 32 0#32)) pads_S5000000_S5242880_02428800 h_S_

/-- A flat padded array in the first region's 40960 × 128 layout. -/
def tiled (p : FlatP) : Tile :=
  shapeCast S40960x128 p shapeCasts_S5242880_S40960x128

/-- A 40960 × 128 array flattened and cut back to the 5,000,000 nodes. -/
def cutArr (o : Tile) : FlatN :=
  extractStridedSlice S5000000 ![0] (shapeCast S5242880 o shapeCasts_S40960x128_S5242880) slices_S5242880_S5000000_0

/-- Negative index words wrapped by the node count. -/
def wrapArr (r : WordsE) : WordsE :=
  select (cmpi .slt r (broadcastInDim S80000000 ![] bcast_S_S80000000 (constantI S_ 32 0#32)))
    (addi r (broadcastInDim S80000000 ![] bcast_S_S80000000 (constantI S_ 32 5000000#32))) r

/-- The table with the columns `xw` and `dis`. -/
def tableArr (xwA disA : FlatN) : FVec Ideal S5000000x2 .f32 :=
  concatenate S5000000x2 1
    [⟨S5000000x1, broadcastInDim S5000000x1 ![0] bcast_S5000000_S5000000x1_0 xwA⟩,
     ⟨S5000000x1, broadcastInDim S5000000x1 ![0] bcast_S5000000_S5000000x1_0 disA⟩]
    concatenates_S5000000x1_S5000000x1_S5000000x2_d1

/-- The table's rows gathered at the (wrapped) source words. -/
def rowsArr (xwA disA : FlatN) (r : WordsE) : FVec Ideal S80000000x2 .f32 :=
  Host.gather gather_S5000000x2_S80000000x1_S80000000x2_1_0_n_n_0_1_12 (tableArr xwA disA)
    (broadcastInDim S80000000x1 ![0] bcast_S80000000_S80000000x1_0 (wrapArr r))

/-- Per edge: `(xw[src] · dis[src]) · dis[tgt]`. -/
def msgArr (xwA disA : FlatN) (r cl : WordsE) : FlatE :=
  mulf (F := Ideal)
    (mulf (F := Ideal)
      (shapeCast S80000000 (extractStridedSlice S80000000x1 ![0, 0] (rowsArr xwA disA r) slices_S80000000x2_S80000000x1_0_0) shapeCasts_S80000000x1_S80000000)
      (shapeCast S80000000 (extractStridedSlice S80000000x1 ![0, 1] (rowsArr xwA disA r) slices_S80000000x2_S80000000x1_0_1) shapeCasts_S80000000x1_S80000000))
    (Host.gather gather_S5000000_S80000000x1_S80000000_n_0_n_n_0_1_1 disA
      (broadcastInDim S80000000x1 ![0] bcast_S80000000_S80000000x1_0 (wrapArr cl)))

/-- The messages scatter-added at the target words into zeros, plus the self-loop term, regrouped 100000 × 50. -/
def hArr (xwA disA selfA : FlatN) (r cl : WordsE) : FVec Ideal S100000x50 .f32 :=
  shapeCast S100000x50
    (addf (F := Ideal)
      (Host.scatterAdd (F := Ideal) scatter_S5000000_S80000000x1_S80000000_n_0_0_1
        (broadcastInDim S5000000 ![] bcast_S_S5000000 (constant (F := Ideal) S_ .f32 0x00000000#32))
        (broadcastInDim S80000000x1 ![0] bcast_S80000000_S80000000x1_0 cl)
        (msgArr xwA disA r cl))
      selfA)
    shapeCasts_S5000000_S100000x50

end Cert.KernelIdeal.HostArrays

end
-- ==== Proof.KernelHost.lean ====
/-
  What the buffers the two regions read hold when the regions are entered, in the idealized kernel program's run, as
  the pure array functions of KernelArrays.lean applied to the argument arrays at launch (and, for the second region,
  to the first region's three output arrays):

    first region:   x tiled (flattened, padded, 40960 × 128), the degree tiled likewise, the 1 × 1 weight;
    second region:  `hArr` of the first region's outputs cut back to the nodes and of the edge words; the bias 1 × 1;
                    the classifier's matrix transposed; its bias 1 × 2.

  Each stretch of host operations is first read over an ARBITRARY valuation (so nothing of the run is unfolded), then
  the stretches are chained from the launch memory: a buffer a stretch does not write keeps its contents.
-/
import proofs.«174288_j48180943127420_2_alg».proof.Proof.Gen.KernelIdeal.Frame
import proofs.«174288_j48180943127420_2_alg».proof.Proof.KernelArrays
import Idealize.ShloMosaic.Lib.StableHlo.Run

set_option maxRecDepth 16384

noncomputable section

namespace Cert.KernelIdeal.HostValue

open Cert.KernelIdeal Cert.KernelIdeal.Gen Cert.KernelIdeal.HostArrays
open Idealize.ShloMosaic Idealize.ShloMosaic.TcCoe Idealize.SL.Sem Idealize.ShloMosaic.StableHlo

/-- No operation of the named stretch writes the buffer in question: every operation writes one buffer, another one. -/
local macro "no_write " ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## Each stretch over an arbitrary valuation -/

section Stretches
variable (X : Valuation τ sig (Elt Ideal))

theorem s0_v1 : after (hostOps0 (F := Ideal)) X (Proc.devRef .tc main_v1) = rowArr (X (Proc.devRef .tc main_arg1)) := by
  after_results <;> rfl
theorem s0_v3 : after (hostOps0 (F := Ideal)) X (Proc.devRef .tc main_v3) = colArr (X (Proc.devRef .tc main_arg1)) := by
  after_results <;> rfl
theorem s0_v9 : after (hostOps0 (F := Ideal)) X (Proc.devRef .tc main_v9) = degArr (X (Proc.devRef .tc main_arg1)) := by
  after_results <;> rfl
theorem s0_v10 : after (hostOps0 (F := Ideal)) X (Proc.devRef .tc main_v10)
    = shapeCast S5000000 (X (Proc.devRef .tc main_arg0)) shapeCasts_S5000000x1_S5000000 := by
  after_results <;> rfl
theorem s0_c : after (hostOps0 (F := Ideal)) X (Proc.devRef .tc main_c) = constantI S_ 32 0#32 := by
  after_results <;> rfl
theorem s01_v11 : after (hostOps0_1 (F := Ideal)) X (Proc.devRef .tc main_v11)
    = pad S5242880 ![0] ![242880] ![0] (X (Proc.devRef .tc main_v10)) (sitofp (F := Ideal) .f32 (X (Proc.devRef .tc main_c)))
        pads_S5000000_S5242880_02428800 h_S_ := by
  after_results <;> rfl
theorem s02_c2 : after (hostOps0_2 (F := Ideal)) X (Proc.devRef .tc main_c_2) = constantI S_ 32 0#32 := by
  after_results <;> rfl
theorem s03_v12 : after (hostOps0_3 (F := Ideal)) X (Proc.devRef .tc main_v12)
    = pad S5242880 ![0] ![242880] ![0] (X (Proc.devRef .tc main_v9)) (sitofp (F := Ideal) .f32 (X (Proc.devRef .tc main_c_2)))
        pads_S5000000_S5242880_02428800 h_S_ := by
  after_results <;> rfl
theorem s04_v13 : after (hostOps0_4 (F := Ideal)) X (Proc.devRef .tc main_v13) = tiled (X (Proc.devRef .tc main_v11)) := by
  after_results <;> rfl
theorem s04_v14 : after (hostOps0_4 (F := Ideal)) X (Proc.devRef .tc main_v14) = tiled (X (Proc.devRef .tc main_v12)) := by
  after_results <;> rfl

theorem s1_v49 : after (hostOps1 (F := Ideal)) X (Proc.devRef .tc main_v49)
    = hArr (cutArr (X (Proc.devRef .tc main_v15_0))) (cutArr (X (Proc.devRef .tc main_v15_1)))
        (cutArr (X (Proc.devRef .tc main_v15_2))) (X (Proc.devRef .tc main_v1)) (X (Proc.devRef .tc main_v3)) := by
  after_results_simp <;> rfl
theorem s1_v50 : after (hostOps1 (F := Ideal)) X (Proc.devRef .tc main_v50)
    = shapeCast S1x1 (X (Proc.devRef .tc main_arg3)) shapeCasts_S1_S1x1 := by
  after_results_simp <;> rfl
theorem s1_v51 : after (hostOps1 (F := Ideal)) X (Proc.devRef .tc main_v51)
    = transpose S50x2 [1, 0] (X (Proc.devRef .tc main_arg4)) transposes_S2x50_S50x2_1_0 := by
  after_results_simp <;> rfl
theorem s1_v52 : after (hostOps1 (F := Ideal)) X (Proc.devRef .tc main_v52)
    = shapeCast S1x2 (X (Proc.devRef .tc main_arg5)) shapeCasts_S2_S1x2 := by
  after_results_simp <;> rfl

end Stretches

/-! ## The stretches chained from the launch memory -/

variable (m : (ℓ : Loc nD τ sig) → Buf (Elt Ideal) ℓ) (ρ : Dev nD → PrngReg) (c : Dev nD)

theorem W1_v1 : W1 m ρ c (Proc.devRef .tc main_v1) = rowArr (m ((c : Thread nD τ).loc main_arg1)) := s0_v1 (W0 m ρ c)
theorem W1_v3 : W1 m ρ c (Proc.devRef .tc main_v3) = colArr (m ((c : Thread nD τ).loc main_arg1)) := s0_v3 (W0 m ρ c)
theorem W1_v9 : W1 m ρ c (Proc.devRef .tc main_v9) = degArr (m ((c : Thread nD τ).loc main_arg1)) := s0_v9 (W0 m ρ c)
theorem W1_v10 : W1 m ρ c (Proc.devRef .tc main_v10)
    = shapeCast S5000000 (m ((c : Thread nD τ).loc main_arg0)) shapeCasts_S5000000x1_S5000000 := s0_v10 (W0 m ρ c)
theorem W1_c : W1 m ρ c (Proc.devRef .tc main_c) = constantI S_ 32 0#32 := s0_c (W0 m ρ c)

/-- The first region's first input: x, flat, padded, tiled. -/
theorem W5_v13 : W5 m ρ c (Proc.devRef .tc main_v13)
    = tiled (padded (shapeCast S5000000 (m ((c : Thread nD τ).loc main_arg0)) shapeCasts_S5000000x1_S5000000)) := by
  have e4 : W4 m ρ c (Proc.devRef .tc main_v11) = W3 m ρ c (Proc.devRef .tc main_v11) :=
    StableHlo.after_of_forall_not_mem (b := Proc.devRef .tc main_v11) _ _ (by no_write hostOps0_3)
  have e3 : W3 m ρ c (Proc.devRef .tc main_v11) = W2 m ρ c (Proc.devRef .tc main_v11) :=
    StableHlo.after_of_forall_not_mem (b := Proc.devRef .tc main_v11) _ _ (by no_write hostOps0_2)
  have e2 : W2 m ρ c (Proc.devRef .tc main_v11) = padded (shapeCast S5000000 (m ((c : Thread nD τ).loc main_arg0)) shapeCasts_S5000000x1_S5000000) := by
    refine (s01_v11 (W1 m ρ c)).trans ?_
    rw [W1_v10, W1_c]; rfl
  refine (s04_v13 (W4 m ρ c)).trans ?_
  rw [e4, e3, e2]

/-- The first region's second input: the degree, padded, tiled. -/
theorem W5_v14 : W5 m ρ c (Proc.devRef .tc main_v14) = tiled (padded (degArr (m ((c : Thread nD τ).loc main_arg1)))) := by
  have e9a : W3 m ρ c (Proc.devRef .tc main_v9) = W2 m ρ c (Proc.devRef .tc main_v9) :=
    StableHlo.after_of_forall_not_mem (b := Proc.devRef .tc main_v9) _ _ (by no_write hostOps0_2)
  have e9b : W2 m ρ c (Proc.devRef .tc main_v9) = W1 m ρ c (Proc.devRef .tc main_v9) :=
    StableHlo.after_of_forall_not_mem (b := Proc.devRef .tc main_v9) _ _ (by no_write hostOps0_1)
  have ec : W3 m ρ c (Proc.devRef .tc main_c_2) = constantI S_ 32 0#32 := s02_c2 (W2 m ρ c)
  have e12 : W4 m ρ c (Proc.devRef .tc main_v12) = padded (degArr (m ((c : Thread nD τ).loc main_arg1))) := by
    refine (s03_v12 (W3 m ρ c)).trans ?_
    rw [e9a, e9b, W1_v9, ec]; rfl
  refine (s04_v14 (W4 m ρ c)).trans ?_
  rw [e12]

/-- An edge-word array of the first stretch is still there when the first region ends. -/
theorem W6_v1 : W6 m ρ c (Proc.devRef .tc main_v1) = rowArr (m ((c : Thread nD τ).loc main_arg1)) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (by no_write hostOps0_4)
    _ = W3 m ρ c (Proc.devRef .tc main_v1) := StableHlo.after_of_forall_not_mem (b := Proc.devRef .tc main_v1) _ _ (by no_write hostOps0_3)
    _ = W2 m ρ c (Proc.devRef .tc main_v1) := StableHlo.after_of_forall_not_mem (b := Proc.devRef .tc main_v1) _ _ (by no_write hostOps0_2)
    _ = W1 m ρ c (Proc.devRef .tc main_v1) := StableHlo.after_of_forall_not_mem (b := Proc.devRef .tc main_v1) _ _ (by no_write hostOps0_1)
    _ = _ := W1_v1 m ρ c
theorem W6_v3 : W6 m ρ c (Proc.devRef .tc main_v3) = colArr (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (by no_write hostOps0_4)
    _ = W3 m ρ c (Proc.devRef .tc main_v3) := StableHlo.after_of_forall_not_mem (b := Proc.devRef .tc main_v3) _ _ (by no_write hostOps0_3)
    _ = W2 m ρ c (Proc.devRef .tc main_v3) := StableHlo.after_of_forall_not_mem (b := Proc.devRef .tc main_v3) _ _ (by no_write hostOps0_2)
    _ = W1 m ρ c (Proc.devRef .tc main_v3) := StableHlo.after_of_forall_not_mem (b := Proc.devRef .tc main_v3) _ _ (by no_write hostOps0_1)
    _ = _ := W1_v3 m ρ c

/-- An argument array is as launched at every boundary from the first region's entry on: read back from the end. -/
theorem W6_arg (a : Ref sig .tc) (hne1 : ∀ w, Pipeline.arrRef spec1 w ≠ a)
    (hno : ∀ op ∈ (hostOps1 (F := Ideal)), Proc.devRef .tc a ∉ op.writes)
    (hend : W8 m ρ c (Proc.devRef .tc a) = m ((c : Thread nD τ).loc a)) :
    W6 m ρ c (Proc.devRef .tc a) = m ((c : Thread nD τ).loc a) :=
  calc W6 m ρ c (Proc.devRef .tc a)
    _ = W7 m ρ c (Proc.devRef .tc a) := (StableHlo.after_of_forall_not_mem (b := Proc.devRef .tc a) _ _ hno).symm
    _ = W8 m ρ c (Proc.devRef .tc a) := (W8_of_ne m ρ c a hne1).symm
    _ = _ := hend

theorem W6_arg3 : W6 m ρ c (Proc.devRef .tc main_arg3) = m ((c : Thread nD τ).loc main_arg3) :=
  W6_arg m ρ c main_arg3 (by decide) (by no_write hostOps1) (W8_main_arg3 m ρ c)
theorem W6_arg4 : W6 m ρ c (Proc.devRef .tc main_arg4) = m ((c : Thread nD τ).loc main_arg4) :=
  W6_arg m ρ c main_arg4 (by decide) (by no_write hostOps1) (W8_main_arg4 m ρ c)
theorem W6_arg5 : W6 m ρ c (Proc.devRef .tc main_arg5) = m ((c : Thread nD τ).loc main_arg5) :=
  W6_arg m ρ c main_arg5 (by decide) (by no_write hostOps1) (W8_main_arg5 m ρ c)

/-- The 1 × 1 weight when the first region is entered: as launched. -/
theorem W5_arg2 : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (by no_write hostOps0_4)
    _ = W3 m ρ c (Proc.devRef .tc main_arg2) := StableHlo.after_of_forall_not_mem (b := Proc.devRef .tc main_arg2) _ _ (by no_write hostOps0_3)
    _ = W2 m ρ c (Proc.devRef .tc main_arg2) := StableHlo.after_of_forall_not_mem (b := Proc.devRef .tc main_arg2) _ _ (by no_write hostOps0_2)
    _ = W1 m ρ c (Proc.devRef .tc main_arg2) := StableHlo.after_of_forall_not_mem (b := Proc.devRef .tc main_arg2) _ _ (by no_write hostOps0_1)
    _ = W0 m ρ c (Proc.devRef .tc main_arg2) := StableHlo.after_of_forall_not_mem (b := Proc.devRef .tc main_arg2) _ _ (by no_write hostOps0)
    _ = _ := rfl

/-! ## What the second region reads -/

theorem W7_v49 : W7 m ρ c (Proc.devRef .tc main_v49)
    = hArr (cutArr (W6 m ρ c (Proc.devRef .tc main_v15_0))) (cutArr (W6 m ρ c (Proc.devRef .tc main_v15_1)))
        (cutArr (W6 m ρ c (Proc.devRef .tc main_v15_2)))
        (rowArr (m ((c : Thread nD τ).loc main_arg1))) (colArr (m ((c : Thread nD τ).loc main_arg1))) := by
  refine (s1_v49 (W6 m ρ c)).trans ?_
  rw [W6_v1, W6_v3]
theorem W7_v50 : W7 m ρ c (Proc.devRef .tc main_v50) = shapeCast S1x1 (m ((c : Thread nD τ).loc main_arg3)) shapeCasts_S1_S1x1 := by
  refine (s1_v50 (W6 m ρ c)).trans ?_
  rw [W6_arg3]
theorem W7_v51 : W7 m ρ c (Proc.devRef .tc main_v51)
    = transpose S50x2 [1, 0] (m ((c : Thread nD τ).loc main_arg4)) transposes_S2x50_S50x2_1_0 := by
  refine (s1_v51 (W6 m ρ c)).trans ?_
  rw [W6_arg4]
theorem W7_v52 : W7 m ρ c (Proc.devRef .tc main_v52) = shapeCast S1x2 (m ((c : Thread nD τ).loc main_arg5)) shapeCasts_S2_S1x2 := by
  refine (s1_v52 (W6 m ρ c)).trans ?_
  rw [W6_arg5]

end Cert.KernelIdeal.HostValue

end
-- ==== Proof.KernelIndex.lean ====
import proofs.«174288_j48180943127420_2_alg».proof.Proof.KernelArrays
import proofs.«174288_j48180943127420_2_alg».proof.Proof.GcnSpec
import proofs.«174288_j48180943127420_2_alg».proof.Proof.LibIndexOps
import Idealize.ShloMosaic.Lib.Pipeline.Value
import Idealize.ShloMosaic.Lib.ValueIdx
import Idealize.ShloMosaic.Lib.KernelVsHost
import Idealize.ShloMosaic.PureOps.Ideal.Laws

/-!
# The host-side arrays of the graph-convolution program, read at an index

Each pure array function of `KernelArrays.lean` read at one index, in the vocabulary of `GcnSpec.lean`:
the edges' source and target words (`rowArr_apply`, `colArr_apply`); the degree as a count of target words plus one
(`degArr_apply`); a wrapped word (`wrapArr_apply`); the message of an edge as a product of three gathered entries
(`msgArr_apply`); the aggregate of a group member as the sum of the messages landing on its node plus the self-loop
term (`hArr_apply`); an elementwise function computed in the 40960 × 128 layout and cut back to the nodes
(`cutArr_apply2`, `cutArr_apply1`, with `padded_apply`); and the small layout changes of the classifier's arguments.
No proof enumerates an extent.
-/

noncomputable section

open scoped BigOperators

namespace Cert.KernelIdeal.HostIndex

open Cert.KernelIdeal Cert.KernelIdeal.Gen Cert.KernelIdeal.HostArrays Cert.GcnSpec Cert.LibIndexOps
  Idealize.ShloMosaic Idealize.ShloMosaic.ValueIdx

/-! ## Broadcasts at an index -/

/-- A scalar broadcast over the nodes reads the scalar everywhere. -/
theorem bcastN_apply {α : Type} (c : S_.Idx → α) (i : S5000000.Idx) :
    broadcastInDim S5000000 ![] bcast_S_S5000000 c i = c ix0 :=
  broadcastInDim_apply _ bcast_S_S5000000 c i ix0 (fun a => a.elim0)

/-- A scalar broadcast over the edges reads the scalar everywhere. -/
theorem bcastE_apply {α : Type} (c : S_.Idx → α) (i : S80000000.Idx) :
    broadcastInDim S80000000 ![] bcast_S_S80000000 c i = c ix0 :=
  broadcastInDim_apply _ bcast_S_S80000000 c i ix0 (fun a => a.elim0)

/-- A flat edge array seen as one column reads entry `j` at `(j, 0)`. -/
theorem colE_apply {α : Type} (y : S80000000.Idx → α) (j : Fin 80000000) :
    broadcastInDim S80000000x1 ![0] bcast_S80000000_S80000000x1_0 y (ix2 j 0) = y (ix1 j) :=
  broadcastInDim_apply _ bcast_S80000000_S80000000x1_0 y (ix2 j 0) (ix1 j) (fun a => match a with
    | ⟨0, _⟩ => by show j.val = if (80000000 : Nat) = 1 then 0 else j.val; rw [if_neg (by norm_num)])

/-- A flat node array seen as one column reads entry `n` at `(n, 0)`. -/
theorem colN_apply {α : Type} (y : S5000000.Idx → α) (n : Fin 5000000) :
    broadcastInDim S5000000x1 ![0] bcast_S5000000_S5000000x1_0 y (ix2 n 0) = y (ix1 n) :=
  broadcastInDim_apply _ bcast_S5000000_S5000000x1_0 y (ix2 n 0) (ix1 n) (fun a => match a with
    | ⟨0, _⟩ => by show n.val = if (5000000 : Nat) = 1 then 0 else n.val; rw [if_neg (by norm_num)])

/-! ## The edges' words -/

/-- Entry `j` of the source words is the edge array at `(0, j)`. -/
theorem rowArr_apply (e : Edges) (j : Fin 80000000) : rowArr e (ix1 j) = src e j := by
  unfold rowArr src
  refine (shapeCast_apply _ shapeCasts_S1x80000000_S80000000 (ix1 j) (ix2 0 j) ?_).trans ?_
  · rw [Shape.rowMajor_val_two, Shape.rowMajor_val_one]
    show 0 * 80000000 + j.val = j.val
    omega
  · exact extractStridedSlice_apply ![0, 0] e slices_S2x80000000_S1x80000000_0_0 (ix2 0 j) (ix2 0 j)
      (fun a => match a with
        | ⟨0, _⟩ => by show (0 : Nat) = 0 + 0; rfl
        | ⟨1, _⟩ => by show j.val = 0 + j.val; omega)

/-- Entry `j` of the target words is the edge array at `(1, j)`. -/
theorem colArr_apply (e : Edges) (j : Fin 80000000) : colArr e (ix1 j) = tgt e j := by
  unfold colArr tgt
  refine (shapeCast_apply _ shapeCasts_S1x80000000_S80000000 (ix1 j) (ix2 0 j) ?_).trans ?_
  · rw [Shape.rowMajor_val_two, Shape.rowMajor_val_one]
    show 0 * 80000000 + j.val = j.val
    omega
  · exact extractStridedSlice_apply ![1, 0] e slices_S2x80000000_S1x80000000_1_0 (ix2 0 j) (ix2 1 j)
      (fun a => match a with
        | ⟨0, _⟩ => by show (1 : Nat) = 1 + 0; rfl
        | ⟨1, _⟩ => by show j.val = 0 + j.val; omega)

/-- A wrapped word array reads the wrapped word. -/
theorem wrapArr_apply (r : WordsE) (j : Fin 80000000) : wrapArr r (ix1 j) = wrap (r (ix1 j)) := by
  unfold wrapArr wrap
  rw [select_apply]
  show Scalar.select (IntOp.cmpi .slt (r (ix1 j)) (broadcastInDim S80000000 ![] bcast_S_S80000000 (constantI S_ 32 0#32) (ix1 j)))
      (IntOp.addi (r (ix1 j)) (broadcastInDim S80000000 ![] bcast_S_S80000000 (constantI S_ 32 5000000#32) (ix1 j))) (r (ix1 j)) = _
  rw [bcastE_apply, bcastE_apply]
  rfl

/-! ## Padding, flattening, and the small layout changes of the classifier's arguments -/

/-- A padded node array reads the node array below the node count. -/
theorem padded_apply (v : FlatN) (n : Fin 5000000) :
    padded v (ix1 ⟨n.val, by have := n.isLt; omega⟩) = v (ix1 n) := by
  unfold padded
  exact pad_apply_of_inside ![0] ![242880] ![0] v _ pads_S5000000_S5242880_02428800 h_S_ (ix1 ⟨n.val, _⟩) (ix1 n)
    (fun a => match a with
      | ⟨0, _⟩ => by show n.val = 0 + n.val * (0 + 1); omega)

/-- A one-column node array flattened reads `(n, 0)` at `n`. -/
theorem flattenCol_apply (x : FVec Ideal S5000000x1 .f32) (n : Fin 5000000) :
    shapeCast S5000000 x shapeCasts_S5000000x1_S5000000 (ix1 n) = x (ix2 n 0) := by
  refine shapeCast_apply x shapeCasts_S5000000x1_S5000000 (ix1 n) (ix2 n 0) ?_
  rw [Shape.rowMajor_val_two, Shape.rowMajor_val_one]
  show n.val * 1 + 0 = n.val
  omega

/-- The bias as a 1 × 1 array. -/
theorem bias_apply (b : FVec Ideal S1 .f32) : shapeCast S1x1 b shapeCasts_S1_S1x1 (ix2 0 0) = b (ix1 0) := by
  refine shapeCast_apply b shapeCasts_S1_S1x1 (ix2 0 0) (ix1 0) ?_
  rw [Shape.rowMajor_val_two, Shape.rowMajor_val_one]
  rfl

/-- The classifier's weights transposed: entry `(k, c)` is entry `(c, k)`. -/
theorem fwT_apply (fw : FVec Ideal S2x50 .f32) (k : Fin 50) (c : Fin 2) :
    transpose S50x2 [1, 0] fw transposes_S2x50_S50x2_1_0 (ix2 k c) = fw (ix2 c k) :=
  transpose_apply [1, 0] fw transposes_S2x50_S50x2_1_0 (ix2 k c) (ix2 c k) (Fin.forall_fin_two.2 ⟨rfl, rfl⟩)

/-- The classifier's bias as a 1 × 2 array. -/
theorem fbRow_apply (fb : FVec Ideal S2 .f32) (c : Fin 2) :
    shapeCast S1x2 fb shapeCasts_S2_S1x2 (ix2 0 c) = fb (ix1 c) := by
  refine shapeCast_apply fb shapeCasts_S2_S1x2 (ix2 0 c) (ix1 c) ?_
  rw [Shape.rowMajor_val_two, Shape.rowMajor_val_one]
  show c.val = 0 * 2 + c.val
  omega

/-! ## The scatter-add at the target words, and the degree -/

/-- THE PROGRAM'S SCATTER-ADD READ AT NODE `n`: the base's element plus the sum of the updates whose index word, read
    signed, is `n`. -/
theorem scatterAdd_apply (x : FlatN) (cl : WordsE) (u : FlatE) (n : Fin 5000000) :
    Host.scatterAdd (F := Ideal) scatter_S5000000_S80000000x1_S80000000_n_0_0_1 x
        (broadcastInDim S80000000x1 ![0] bcast_S80000000_S80000000x1_0 cl) u (ix1 n)
      = x (ix1 n) + ∑ j : Fin 80000000, if (cl (ix1 j)).toInt = (n.val : Int) then u (ix1 j) else 0 := by
  unfold Host.scatterAdd
  rw [Ideal.hostScatterAdd_def]
  refine (scatterAddFlat_apply scatter_S5000000_S80000000x1_S80000000_n_0_0_1_wf x _ u n).trans ?_
  refine congrArg (x (ix1 n) + ·) (Finset.sum_congr rfl fun j _ => ?_)
  rw [colE_apply]

/-- The zero base of a scatter reads the float word `0.0`. -/
theorem zeroN_apply (i : S5000000.Idx) :
    broadcastInDim S5000000 ![] bcast_S_S5000000 (constant (F := Ideal) S_ .f32 0x00000000#32) i = zero :=
  bcastN_apply _ i

/-- The broadcast float word `1.0` over the nodes. -/
theorem oneN_apply (i : S5000000.Idx) :
    broadcastInDim S5000000 ![] bcast_S_S5000000 (constant (F := Ideal) S_ .f32 0x3F800000#32) i = one :=
  bcastN_apply _ i

/-- The broadcast float word `1.0` over the edges. -/
theorem oneE_apply (i : S80000000.Idx) :
    broadcastInDim S80000000 ![] bcast_S_S80000000 (constant (F := Ideal) S_ .f32 0x3F800000#32) i = one :=
  bcastE_apply _ i

/-- THE DEGREE AT NODE `n`: the number of edges whose target word is `n`, plus one. -/
theorem degArr_apply (e : Edges) (n : Fin 5000000) : degArr e (ix1 n) = degK e n := by
  unfold degArr degK
  rw [addf_apply, scatterAdd_apply, zeroN_apply, oneN_apply]
  refine congrArg (fun s => (zero + s) + one) (Finset.sum_congr rfl fun j _ => ?_)
  rw [colArr_apply, oneE_apply]

/-! ## The gathers at the source and target words, and the messages -/

/-- The two-column table reads the first array in column 0 … -/
theorem tableArr_apply0 (xwA disA : FlatN) (m : Fin 5000000) : tableArr xwA disA (ix2 m 0) = xwA (ix1 m) := by
  unfold tableArr
  refine (concatCols_apply 5000000 _ _ concatenates_S5000000x1_S5000000x1_S5000000x2_d1 m 0).trans ?_
  rw [if_pos (show ((0 : Fin 2).val = 0) from rfl), colN_apply]

/-- … and the second in column 1. -/
theorem tableArr_apply1 (xwA disA : FlatN) (m : Fin 5000000) : tableArr xwA disA (ix2 m 1) = disA (ix1 m) := by
  unfold tableArr
  refine (concatCols_apply 5000000 _ _ concatenates_S5000000x1_S5000000x1_S5000000x2_d1 m 1).trans ?_
  rw [if_neg (show ¬ ((1 : Fin 2).val = 0) by decide), colN_apply]

/-- The gathered rows: row `j` is the table's row at the node the source word names. -/
theorem rowsArr_apply (xwA disA : FlatN) (r : WordsE) (j : Fin 80000000) (c : Fin 2) :
    rowsArr xwA disA r (ix2 j c) = tableArr xwA disA (ix2 (node (r (ix1 j))) c) := by
  unfold rowsArr
  refine (gatherRows_apply (by norm_num) gather_S5000000x2_S80000000x1_S80000000x2_1_0_n_n_0_1_12_wf
    (tableArr xwA disA) _ j c).trans ?_
  have hw : broadcastInDim S80000000x1 ![0] bcast_S80000000_S80000000x1_0 (wrapArr r) (ix2 j 0) = wrap (r (ix1 j)) := by
    rw [colE_apply, wrapArr_apply]
  refine congrArg (fun m => tableArr xwA disA (ix2 m c)) (Fin.ext ?_)
  show min (broadcastInDim S80000000x1 ![0] bcast_S80000000_S80000000x1_0 (wrapArr r) (ix2 j 0)).toInt.toNat
    (5000000 - 1) = (node (r (ix1 j))).val
  rw [hw]
  rfl

/-- A flat node array gathered at wrapped words: entry `j` is the array at the node the word names. -/
theorem gatherNode_apply (v : FlatN) (r : WordsE) (j : Fin 80000000) :
    Host.gather gather_S5000000_S80000000x1_S80000000_n_0_n_n_0_1_1 v
        (broadcastInDim S80000000x1 ![0] bcast_S80000000_S80000000x1_0 (wrapArr r)) (ix1 j)
      = v (ix1 (node (r (ix1 j)))) := by
  refine (gatherFlat_apply (by norm_num) gather_S5000000_S80000000x1_S80000000_n_0_n_n_0_1_1_wf v _ j).trans ?_
  have hw : broadcastInDim S80000000x1 ![0] bcast_S80000000_S80000000x1_0 (wrapArr r) (ix2 j 0) = wrap (r (ix1 j)) := by
    rw [colE_apply, wrapArr_apply]
  refine congrArg (fun m => v (ix1 m)) (Fin.ext ?_)
  show min (broadcastInDim S80000000x1 ![0] bcast_S80000000_S80000000x1_0 (wrapArr r) (ix2 j 0)).toInt.toNat
    (5000000 - 1) = (node (r (ix1 j))).val
  rw [hw]
  rfl

/-- Column `c` of a gathered two-column array, flattened. -/
theorem colOfRows_apply0 (t : FVec Ideal S80000000x2 .f32) (j : Fin 80000000) :
    shapeCast S80000000 (extractStridedSlice S80000000x1 ![0, 0] t slices_S80000000x2_S80000000x1_0_0)
        shapeCasts_S80000000x1_S80000000 (ix1 j) = t (ix2 j 0) := by
  refine (shapeCast_apply _ shapeCasts_S80000000x1_S80000000 (ix1 j) (ix2 j 0) ?_).trans ?_
  · rw [Shape.rowMajor_val_two, Shape.rowMajor_val_one]
    show j.val * 1 + 0 = j.val
    omega
  · exact extractStridedSlice_apply ![0, 0] t slices_S80000000x2_S80000000x1_0_0 (ix2 j 0) (ix2 j 0)
      (fun a => match a with
        | ⟨0, _⟩ => by show j.val = 0 + j.val; omega
        | ⟨1, _⟩ => by show (0 : Nat) = 0 + 0; rfl)

theorem colOfRows_apply1 (t : FVec Ideal S80000000x2 .f32) (j : Fin 80000000) :
    shapeCast S80000000 (extractStridedSlice S80000000x1 ![0, 1] t slices_S80000000x2_S80000000x1_0_1)
        shapeCasts_S80000000x1_S80000000 (ix1 j) = t (ix2 j 1) := by
  refine (shapeCast_apply _ shapeCasts_S80000000x1_S80000000 (ix1 j) (ix2 j 0) ?_).trans ?_
  · rw [Shape.rowMajor_val_two, Shape.rowMajor_val_one]
    show j.val * 1 + 0 = j.val
    omega
  · exact extractStridedSlice_apply ![0, 1] t slices_S80000000x2_S80000000x1_0_1 (ix2 j 0) (ix2 j 1)
      (fun a => match a with
        | ⟨0, _⟩ => by show j.val = 0 + j.val; omega
        | ⟨1, _⟩ => by show (1 : Nat) = 1 + 0; rfl)

/-- THE MESSAGE OF EDGE `j`: `(xw · dis)` at the node its source word names, times `dis` at the node its target word
    names. -/
theorem msgArr_apply (xwA disA : FlatN) (r cl : WordsE) (j : Fin 80000000) :
    msgArr xwA disA r cl (ix1 j)
      = (xwA (ix1 (node (r (ix1 j)))) * disA (ix1 (node (r (ix1 j))))) * disA (ix1 (node (cl (ix1 j)))) := by
  unfold msgArr
  rw [mulf_apply, mulf_apply, colOfRows_apply0, colOfRows_apply1, rowsArr_apply, rowsArr_apply, tableArr_apply0,
    tableArr_apply1, gatherNode_apply]

/-! ## The aggregated features, regrouped 100000 × 50 -/

/-- THE AGGREGATE AT MEMBER `k` OF GROUP `g`: the sum of the messages of the edges whose target word is node
    `50 g + k`, plus that node's self-loop term. -/
theorem hArr_apply (xwA disA selfA : FlatN) (r cl : WordsE) (g : Fin 100000) (k : Fin 50) :
    hArr xwA disA selfA r cl (ix2 g k)
      = (zero + ∑ j : Fin 80000000,
            if (cl (ix1 j)).toInt = ((member g k).val : Int) then msgArr xwA disA r cl (ix1 j) else 0)
        + selfA (ix1 (member g k)) := by
  unfold hArr
  refine (shapeCast_apply _ shapeCasts_S5000000_S100000x50 (ix2 g k) (ix1 (member g k)) ?_).trans ?_
  · rw [Shape.rowMajor_val_two, Shape.rowMajor_val_one]
    show (member g k).val = g.val * 50 + k.val
    unfold member
    show 50 * g.val + k.val = g.val * 50 + k.val
    omega
  · rw [addf_apply, scatterAdd_apply, zeroN_apply]

/-! ## The first region's 40960 × 128 layout, undone -/

/-- A flattened 40960 × 128 array reads position `m` at row `m / 128`, column `m % 128`. -/
theorem flattenTile_apply (o : Tile) (m : Fin 5242880) :
    shapeCast S5242880 o shapeCasts_S40960x128_S5242880 (ix1 m)
      = o (ix2 ⟨m.val / 128, by have := m.isLt; omega⟩ ⟨m.val % 128, by omega⟩) := by
  refine shapeCast_apply o shapeCasts_S40960x128_S5242880 (ix1 m) (ix2 ⟨m.val / 128, _⟩ ⟨m.val % 128, _⟩) ?_
  rw [Shape.rowMajor_val_two, Shape.rowMajor_val_one]
  show m.val / 128 * 128 + m.val % 128 = m.val
  omega

/-- A padded array in the 40960 × 128 layout reads position `m` at row `m / 128`, column `m % 128`. -/
theorem tiled_apply (p : FlatP) (m : Fin 5242880) :
    tiled p (ix2 ⟨m.val / 128, by have := m.isLt; omega⟩ ⟨m.val % 128, by omega⟩) = p (ix1 m) := by
  unfold tiled
  refine shapeCast_apply p shapeCasts_S5242880_S40960x128 (ix2 ⟨m.val / 128, _⟩ ⟨m.val % 128, _⟩) (ix1 m) ?_
  rw [Shape.rowMajor_val_two, Shape.rowMajor_val_one]
  show m.val = m.val / 128 * 128 + m.val % 128
  omega

/-- The cut reads the flattened array below the node count. -/
theorem cutArr_eq (o : Tile) (n : Fin 5000000) :
    cutArr o (ix1 n) = shapeCast S5242880 o shapeCasts_S40960x128_S5242880 (ix1 ⟨n.val, by have := n.isLt; omega⟩) := by
  unfold cutArr
  exact extractStridedSlice_apply ![0] _ slices_S5242880_S5000000_0 (ix1 n) (ix1 ⟨n.val, _⟩)
    (fun a => match a with
      | ⟨0, _⟩ => by show n.val = 0 + n.val; omega)

/-- AN ELEMENTWISE FUNCTION OF TWO PADDED ARRAYS, computed in the 40960 × 128 layout and cut back to the nodes, is the
    function of the two arrays' entries at the node. -/
theorem cutArr_apply2 (p q : FlatP) (f : EReal → EReal → EReal) (o : Tile)
    (ho : ∀ i, o i = f (tiled p i) (tiled q i)) (n : Fin 5000000) :
    cutArr o (ix1 n) = f (p (ix1 ⟨n.val, by have := n.isLt; omega⟩)) (q (ix1 ⟨n.val, by have := n.isLt; omega⟩)) := by
  rw [cutArr_eq, flattenTile_apply, ho, tiled_apply, tiled_apply]

/-- The same for a function of one padded array. -/
theorem cutArr_apply1 (p : FlatP) (f : EReal → EReal) (o : Tile) (ho : ∀ i, o i = f (tiled p i)) (n : Fin 5000000) :
    cutArr o (ix1 n) = f (p (ix1 ⟨n.val, by have := n.isLt; omega⟩)) := by
  rw [cutArr_eq, flattenTile_apply, ho, tiled_apply]

end Cert.KernelIdeal.HostIndex

end
-- ==== Proof.KernelRegions.lean ====
/-
  The two kernel regions in closed form, for an arbitrary valuation `V` of the buffers at the region's entry.

  Region 0 is pointwise on arrays of 40960 × 128, cut into ten row blocks of 4096: with `X`, `Dg` the two row-blocked
  inputs and `Wt` the 1 × 1 weight, the three outputs are, at every index `i`,
      `X i * Wt (0,0)`,   `disOf (Dg i)`,   `((X i * Wt (0,0)) * disOf (Dg i)) * disOf (Dg i)`.
  Region 1 maps the 100000 × 50 array `H`, cut into ten row blocks of 10000, with the 1 × 1 bias `B`, the 50 × 2 matrix
  `WT` and the 1 × 2 bias `FB`, to the 100000 × 2 array whose entry at `(g, c)` is
      `(∑ k < 50, (H (g, k) + B (0,0)) * WT (k, c)) + FB (0, c)`.
  Each statement is one whole-array equation: every grid point writes its block of the same whole-array function, and
  the ten blocks cover the array (row `r` lies in block `r / 4096`, resp. `r / 10000`).
-/
import proofs.«174288_j48180943127420_2_alg».proof.Proof.Gen.KernelIdeal.Frame
import proofs.«174288_j48180943127420_2_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem arr0_0 : Pipeline.arrRef spec0 0 = main_v13 := rfl
theorem arr0_1 : Pipeline.arrRef spec0 1 = main_v14 := rfl
theorem arr0_2 : Pipeline.arrRef spec0 2 = main_arg2 := rfl
theorem arr0_3 : Pipeline.arrRef spec0 3 = main_v15_0 := rfl
theorem arr0_4 : Pipeline.arrRef spec0 4 = main_v15_1 := rfl
theorem arr0_5 : Pipeline.arrRef spec0 5 = main_v15_2 := rfl
theorem arr1_0 : Pipeline.arrRef spec1 0 = main_v49 := rfl
theorem arr1_1 : Pipeline.arrRef spec1 1 = main_v50 := rfl
theorem arr1_2 : Pipeline.arrRef spec1 2 = main_v51 := rfl
theorem arr1_3 : Pipeline.arrRef spec1 3 = main_v52 := rfl
theorem arr1_4 : Pipeline.arrRef spec1 4 = main_v53 := rfl

/-! ## Region 0 -/

theorem zeros2 : (![0, 0] : Fin 2 → Nat) = fun _ => 0 := funext fun a => by fin_cases a <;> rfl

theorem pay_xw (w : Vec Ideal S1x1 .f32) (x : Vec Ideal S4096x128 .f32) (j : S4096x128.Idx) :
    k0_pay1 w x j = x j * w (ix2 0 0) := by
  unfold k0_pay1
  rw [shapeCast_self]
  show x j * w _ = x j * w (ix2 0 0)
  congr 2
  funext a
  match a with
  | ⟨0, _⟩ => rfl
  | ⟨1, _⟩ => rfl

theorem pay_dis (d : Vec Ideal S4096x128 .f32) (j : S4096x128.Idx) :
    k0_pay2 d j = Cert.GcnSpec.disOf (d j) := by
  unfold k0_pay2
  rw [shapeCast_self]
  rfl

theorem pay_self (w : Vec Ideal S1x1 .f32) (x : Vec Ideal S4096x128 .f32) (d : Vec Ideal S4096x128 .f32) (j : S4096x128.Idx) :
    k0_pay3 w x d j = ((x j * w (ix2 0 0)) * Cert.GcnSpec.disOf (d j)) * Cert.GcnSpec.disOf (d j) := by
  unfold k0_pay3
  show (k0_pay1 w x j * k0_pay2 d j) * k0_pay2 d j = _
  rw [pay_xw, pay_dis]

/-- The region's closed forms as whole-array functions. -/
abbrev xwArr (X : S40960x128.Idx → EReal) (Wt : S1x1.Idx → EReal) : S40960x128.Idx → EReal :=
  fun i => X i * Wt (ix2 0 0)
abbrev disArr (Dg : S40960x128.Idx → EReal) : S40960x128.Idx → EReal :=
  fun i => Cert.GcnSpec.disOf (Dg i)
abbrev selfArr (X : S40960x128.Idx → EReal) (Dg : S40960x128.Idx → EReal) (Wt : S1x1.Idx → EReal) : S40960x128.Idx → EReal :=
  fun i => ((X i * Wt (ix2 0 0)) * Cert.GcnSpec.disOf (Dg i)) * Cert.GcnSpec.disOf (Dg i)

/-- Block indices at each of the ten grid points: the three outputs and the two row-blocked inputs sit at block row
    `t`, block column `0`; the weight's one block is always at the origin. -/
theorem idx_rows0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem xw_at (X : S40960x128.Idx → EReal) (Wt : S1x1.Idx → EReal) (i i' : S40960x128.Idx) (k : S1x1.Idx)
    (hi : i = i') (hk : k = ix2 0 0) : X i * Wt k = xwArr X Wt i' := by subst hi hk; rfl

theorem flushed_xw (c : Dev nD) (t : Fin cfg0.N) :
    (dat0 V c).flushed 3 t
      = ((cfg0.win 3).blk t).view.read (Elt Ideal) (xwArr (V c (Pipeline.arrRef spec0 0)) (V c (Pipeline.arrRef spec0 2))) := by
  show (cfg0.win 3).cut (grid0.coords t) ((dat0 V c).after 3 t) = _
  rw [after0_3]
  unfold out0_3
  rw [View.canon_unit_zero zeros2]
  simp only [View.ld_unit_zero (S := S4096x128) zeros2, View.ld_unit_zero (S := S1x1) zeros2]
  obtain ⟨e00, e01, e10, e11, e20, e21, e30, e31, e40, e41, e50, e51⟩ := idx_rows0 t
  funext j
  refine (pay_xw _ _ j).trans ?_
  have h0 : ((cfg0.win 0).blk t).view.emb j = ((cfg0.win 3).blk t).view.emb j := by
    funext a; apply Fin.ext
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 128 + 1 * (j 1).val = win0_3.index t (1 : Fin 2) * 128 + 1 * (j 1).val; omega
  have h2 : ((cfg0.win 2).blk t).view.emb (ix2 0 0) = (ix2 0 0 : S1x1.Idx) := by
    funext a; apply Fin.ext
    match a with
    | ⟨0, _⟩ => show win0_2.index t (0 : Fin 2) * 1 + 1 * 0 = 0; omega
    | ⟨1, _⟩ => show win0_2.index t (1 : Fin 2) * 1 + 1 * 0 = 0; omega
  exact xw_at (V c (Pipeline.arrRef spec0 0)) (V c (Pipeline.arrRef spec0 2)) (((cfg0.win 0).blk t).view.emb j)
    (((cfg0.win 3).blk t).view.emb j) (((cfg0.win 2).blk t).view.emb (ix2 0 0)) h0 h2

theorem mem_rows_xw (t : Fin cfg0.N) (i : S40960x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v15_0).slice (win0_3.rect t)).set ↔ _
  rw [View.set_slice_whole, Rect.mem_set_unit]
  exact Iff.rfl

/-- The point that writes row `r` is `r / 4096`. -/
def rowPoint0 (i : S40960x128.Idx) : Fin cfg0.N :=
  ⟨(i 0).val / 4096, by have h : (i 0).val < 40960 := (i 0).isLt; have hN : cfg0.N = 10 := N_0; omega⟩

theorem covered_xw (i : S40960x128.Idx) :
    ∃ t : Fin cfg0.N, (cfg0.win 3).flush t = true ∧ i ∈ ((cfg0.win 3).blk t).view.set := by
  have hi0 : (i 0).val < 40960 := (i 0).isLt
  have hi1 : (i 1).val < 128 := (i 1).isLt
  refine ⟨rowPoint0 i, flush0_3 _, ?_⟩
  rw [mem_rows_xw]
  obtain ⟨e00, e01, e10, e11, e20, e21, e30, e31, e40, e41, e50, e51⟩ := idx_rows0 (rowPoint0 i)
  have ht : (rowPoint0 i).val = (i 0).val / 4096 := rfl
  intro a
  match a with
  | ⟨0, _⟩ => show win0_3.index (rowPoint0 i) (0 : Fin 2) * 4096 ≤ (i 0).val ∧ (i 0).val < win0_3.index (rowPoint0 i) (0 : Fin 2) * 4096 + 4096; omega
  | ⟨1, _⟩ => show win0_3.index (rowPoint0 i) (1 : Fin 2) * 128 ≤ (i 1).val ∧ (i 1).val < win0_3.index (rowPoint0 i) (1 : Fin 2) * 128 + 128; omega

theorem region0_xw (c : Dev nD) :
    (dat0 V c).arrAt 3 cfg0.N = xwArr (V c (Pipeline.arrRef spec0 0)) (V c (Pipeline.arrRef spec0 2)) :=
  (dat0 V c).arrAt_eq_of_cover 3 _ (fun t _ => flushed_xw V c t) covered_xw

theorem dis_at (Dg : S40960x128.Idx → EReal) (i i' : S40960x128.Idx) (hi : i = i') :
    Cert.GcnSpec.disOf (Dg i) = disArr Dg i' := by subst hi; rfl

theorem flushed_dis (c : Dev nD) (t : Fin cfg0.N) :
    (dat0 V c).flushed 4 t
      = ((cfg0.win 4).blk t).view.read (Elt Ideal) (disArr (V c (Pipeline.arrRef spec0 1))) := by
  show (cfg0.win 4).cut (grid0.coords t) ((dat0 V c).after 4 t) = _
  rw [after0_4]
  unfold out0_4
  rw [View.canon_unit_zero zeros2]
  simp only [View.ld_unit_zero (S := S4096x128) zeros2]
  obtain ⟨e00, e01, e10, e11, e20, e21, e30, e31, e40, e41, e50, e51⟩ := idx_rows0 t
  funext j
  refine (pay_dis _ j).trans ?_
  have h1 : ((cfg0.win 1).blk t).view.emb j = ((cfg0.win 4).blk t).view.emb j := by
    funext a; apply Fin.ext
    match a with
    | ⟨0, _⟩ => show win0_1.index t (0 : Fin 2) * 4096 + 1 * (j 0).val = win0_4.index t (0 : Fin 2) * 4096 + 1 * (j 0).val; omega
    | ⟨1, _⟩ => show win0_1.index t (1 : Fin 2) * 128 + 1 * (j 1).val = win0_4.index t (1 : Fin 2) * 128 + 1 * (j 1).val; omega
  exact dis_at (V c (Pipeline.arrRef spec0 1)) (((cfg0.win 1).blk t).view.emb j) (((cfg0.win 4).blk t).view.emb j) h1

theorem mem_rows_dis (t : Fin cfg0.N) (i : S40960x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v15_1).slice (win0_4.rect t)).set ↔ _
  rw [View.set_slice_whole, Rect.mem_set_unit]
  exact Iff.rfl

theorem covered_dis (i : S40960x128.Idx) :
    ∃ t : Fin cfg0.N, (cfg0.win 4).flush t = true ∧ i ∈ ((cfg0.win 4).blk t).view.set := by
  have hi0 : (i 0).val < 40960 := (i 0).isLt
  have hi1 : (i 1).val < 128 := (i 1).isLt
  refine ⟨rowPoint0 i, flush0_4 _, ?_⟩
  rw [mem_rows_dis]
  obtain ⟨e00, e01, e10, e11, e20, e21, e30, e31, e40, e41, e50, e51⟩ := idx_rows0 (rowPoint0 i)
  have ht : (rowPoint0 i).val = (i 0).val / 4096 := rfl
  intro a
  match a with
  | ⟨0, _⟩ => show win0_4.index (rowPoint0 i) (0 : Fin 2) * 4096 ≤ (i 0).val ∧ (i 0).val < win0_4.index (rowPoint0 i) (0 : Fin 2) * 4096 + 4096; omega
  | ⟨1, _⟩ => show win0_4.index (rowPoint0 i) (1 : Fin 2) * 128 ≤ (i 1).val ∧ (i 1).val < win0_4.index (rowPoint0 i) (1 : Fin 2) * 128 + 128; omega

theorem region0_dis (c : Dev nD) :
    (dat0 V c).arrAt 4 cfg0.N = disArr (V c (Pipeline.arrRef spec0 1)) :=
  (dat0 V c).arrAt_eq_of_cover 4 _ (fun t _ => flushed_dis V c t) covered_dis

theorem self_at (X Dg : S40960x128.Idx → EReal) (Wt : S1x1.Idx → EReal) (i0 i1 i' : S40960x128.Idx) (k : S1x1.Idx)
    (h0 : i0 = i') (h1 : i1 = i') (hk : k = ix2 0 0) :
    ((X i0 * Wt k) * Cert.GcnSpec.disOf (Dg i1)) * Cert.GcnSpec.disOf (Dg i1) = selfArr X Dg Wt i' := by
  subst h0 h1 hk; rfl

theorem flushed_self (c : Dev nD) (t : Fin cfg0.N) :
    (dat0 V c).flushed 5 t
      = ((cfg0.win 5).blk t).view.read (Elt Ideal)
          (selfArr (V c (Pipeline.arrRef spec0 0)) (V c (Pipeline.arrRef spec0 1)) (V c (Pipeline.arrRef spec0 2))) := by
  show (cfg0.win 5).cut (grid0.coords t) ((dat0 V c).after 5 t) = _
  rw [after0_5]
  unfold out0_5
  rw [View.canon_unit_zero zeros2]
  simp only [View.ld_unit_zero (S := S4096x128) zeros2, View.ld_unit_zero (S := S1x1) zeros2]
  obtain ⟨e00, e01, e10, e11, e20, e21, e30, e31, e40, e41, e50, e51⟩ := idx_rows0 t
  funext j
  refine (pay_self _ _ _ j).trans ?_
  have h0 : ((cfg0.win 0).blk t).view.emb j = ((cfg0.win 5).blk t).view.emb j := by
    funext a; apply Fin.ext
    match a with
    | ⟨0, _⟩ => show win0_0.index t (0 : Fin 2) * 4096 + 1 * (j 0).val = win0_5.index t (0 : Fin 2) * 4096 + 1 * (j 0).val; omega
    | ⟨1, _⟩ => show win0_0.index t (1 : Fin 2) * 128 + 1 * (j 1).val = win0_5.index t (1 : Fin 2) * 128 + 1 * (j 1).val; omega
  have h1 : ((cfg0.win 1).blk t).view.emb j = ((cfg0.win 5).blk t).view.emb j := by
    funext a; apply Fin.ext
    match a with
    | ⟨0, _⟩ => show win0_1.index t (0 : Fin 2) * 4096 + 1 * (j 0).val = win0_5.index t (0 : Fin 2) * 4096 + 1 * (j 0).val; omega
    | ⟨1, _⟩ => show win0_1.index t (1 : Fin 2) * 128 + 1 * (j 1).val = win0_5.index t (1 : Fin 2) * 128 + 1 * (j 1).val; omega
  have h2 : ((cfg0.win 2).blk t).view.emb (ix2 0 0) = (ix2 0 0 : S1x1.Idx) := by
    funext a; apply Fin.ext
    match a with
    | ⟨0, _⟩ => show win0_2.index t (0 : Fin 2) * 1 + 1 * 0 = 0; omega
    | ⟨1, _⟩ => show win0_2.index t (1 : Fin 2) * 1 + 1 * 0 = 0; omega
  exact self_at (V c (Pipeline.arrRef spec0 0)) (V c (Pipeline.arrRef spec0 1)) (V c (Pipeline.arrRef spec0 2))
    (((cfg0.win 0).blk t).view.emb j) (((cfg0.win 1).blk t).view.emb j) (((cfg0.win 5).blk t).view.emb j)
    (((cfg0.win 2).blk t).view.emb (ix2 0 0)) h0 h1 h2

theorem mem_rows_self (t : Fin cfg0.N) (i : S40960x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v15_2).slice (win0_5.rect t)).set ↔ _
  rw [View.set_slice_whole, Rect.mem_set_unit]
  exact Iff.rfl

theorem covered_self (i : S40960x128.Idx) :
    ∃ t : Fin cfg0.N, (cfg0.win 5).flush t = true ∧ i ∈ ((cfg0.win 5).blk t).view.set := by
  have hi0 : (i 0).val < 40960 := (i 0).isLt
  have hi1 : (i 1).val < 128 := (i 1).isLt
  refine ⟨rowPoint0 i, flush0_5 _, ?_⟩
  rw [mem_rows_self]
  obtain ⟨e00, e01, e10, e11, e20, e21, e30, e31, e40, e41, e50, e51⟩ := idx_rows0 (rowPoint0 i)
  have ht : (rowPoint0 i).val = (i 0).val / 4096 := rfl
  intro a
  match a with
  | ⟨0, _⟩ => show win0_5.index (rowPoint0 i) (0 : Fin 2) * 4096 ≤ (i 0).val ∧ (i 0).val < win0_5.index (rowPoint0 i) (0 : Fin 2) * 4096 + 4096; omega
  | ⟨1, _⟩ => show win0_5.index (rowPoint0 i) (1 : Fin 2) * 128 ≤ (i 1).val ∧ (i 1).val < win0_5.index (rowPoint0 i) (1 : Fin 2) * 128 + 128; omega

theorem region0_self (c : Dev nD) :
    (dat0 V c).arrAt 5 cfg0.N
      = selfArr (V c (Pipeline.arrRef spec0 0)) (V c (Pipeline.arrRef spec0 1)) (V c (Pipeline.arrRef spec0 2)) :=
  (dat0 V c).arrAt_eq_of_cover 5 _ (fun t _ => flushed_self V c t) covered_self

/-! ## Region 1 -/

abbrev clsArr (H : S100000x50.Idx → EReal) (B : S1x1.Idx → EReal) (WT : S50x2.Idx → EReal) (FB : S1x2.Idx → EReal) :
    S100000x2.Idx → EReal :=
  fun i => (∑ k : Fin 50, (H (ix2 (i 0) k) + B (ix2 0 0)) * WT (ix2 k (i 1))) + FB (ix2 0 (i 1))

theorem mm_lhs0 (j : S10000x2.Idx) (q : dot_S10000x50_S50x2_S10000x2_1_0_0_1_n_n.contr.Idx) :
    (dot_S10000x50_S50x2_S10000x2_1_0_0_1_n_n.lhsIdx j q 0).val = (j 0).val := by
  unfold DotDims.lhsIdx
  rw [dif_neg (show ¬(0 : Fin S10000x50.rank) ∈ dot_S10000x50_S50x2_S10000x2_1_0_0_1_n_n.lhsBatch by decide), dif_pos (show (0 : Fin S10000x50.rank) ∈ dot_S10000x50_S50x2_S10000x2_1_0_0_1_n_n.lhsNonContracting by decide)]
  rfl
theorem mm_lhs1 (j : S10000x2.Idx) (q : dot_S10000x50_S50x2_S10000x2_1_0_0_1_n_n.contr.Idx) :
    (dot_S10000x50_S50x2_S10000x2_1_0_0_1_n_n.lhsIdx j q 1).val = (q ⟨0, by decide⟩).val :=
  dot_S10000x50_S50x2_S10000x2_1_0_0_1_n_n.lhsIdx_val_of_single rfl j q
theorem mm_rhs0 (j : S10000x2.Idx) (q : dot_S10000x50_S50x2_S10000x2_1_0_0_1_n_n.contr.Idx) :
    (dot_S10000x50_S50x2_S10000x2_1_0_0_1_n_n.rhsIdx j q 0).val = (q ⟨0, by decide⟩).val :=
  dot_S10000x50_S50x2_S10000x2_1_0_0_1_n_n.rhsIdx_val_of_single rfl j q
theorem mm_rhs1 (j : S10000x2.Idx) (q : dot_S10000x50_S50x2_S10000x2_1_0_0_1_n_n.contr.Idx) :
    (dot_S10000x50_S50x2_S10000x2_1_0_0_1_n_n.rhsIdx j q 1).val = (j 1).val := by
  unfold DotDims.rhsIdx
  rw [dif_neg (show ¬(1 : Fin S50x2.rank) ∈ dot_S10000x50_S50x2_S10000x2_1_0_0_1_n_n.rhsBatch by decide), dif_pos (show (1 : Fin S50x2.rank) ∈ dot_S10000x50_S50x2_S10000x2_1_0_0_1_n_n.rhsNonContracting by decide)]
  rfl

/-- The block product at an index: the sum over the contracted axis. -/
theorem mm_apply (l : FVec Ideal S10000x50 .f32) (r : FVec Ideal S50x2 .f32) (j : S10000x2.Idx) :
    matmul dot_S10000x50_S50x2_S10000x2_1_0_0_1_n_n none l r (constant S10000x2 .f32 0x00000000#32) j
      = ∑ k : Fin 50, l (ix2 (j 0) k) * r (ix2 k (j 1)) := by
  show FloatOps.matmul dot_S10000x50_S50x2_S10000x2_1_0_0_1_n_n none l r (constant S10000x2 .f32 0x00000000#32) j = _
  rw [Ideal.matmul_constant_zero_apply, ← Equiv.sum_comp (contrEquiv1 dot_S10000x50_S50x2_S10000x2_1_0_0_1_n_n 50 rfl rfl).symm]
  refine Finset.sum_congr rfl fun k _ => ?_
  have hk := contrEquiv1_symm_val dot_S10000x50_S50x2_S10000x2_1_0_0_1_n_n 50 rfl rfl k
  have el : dot_S10000x50_S50x2_S10000x2_1_0_0_1_n_n.lhsIdx j ((contrEquiv1 dot_S10000x50_S50x2_S10000x2_1_0_0_1_n_n 50 rfl rfl).symm k) = ix2 (j 0) k := funext fun a => Fin.ext (by
    match a with
    | ⟨0, _⟩ => exact mm_lhs0 _ _
    | ⟨1, _⟩ => exact (mm_lhs1 _ _).trans hk)
  have er : dot_S10000x50_S50x2_S10000x2_1_0_0_1_n_n.rhsIdx j ((contrEquiv1 dot_S10000x50_S50x2_S10000x2_1_0_0_1_n_n 50 rfl rfl).symm k) = ix2 k (j 1) := funext fun a => Fin.ext (by
    match a with
    | ⟨0, _⟩ => exact (mm_rhs0 _ _).trans hk
    | ⟨1, _⟩ => exact mm_rhs1 _ _)
  rw [el, er]
  rfl

theorem pay_cls (b : Vec Ideal S1x1 .f32) (h : Vec Ideal S10000x50 .f32) (wt : Vec Ideal S50x2 .f32) (fb : Vec Ideal S1x2 .f32)
    (j : S10000x2.Idx) :
    k1_pay1 b h wt fb j = (∑ k : Fin 50, (h (ix2 (j 0) k) + b (ix2 0 0)) * wt (ix2 k (j 1))) + fb (ix2 0 (j 1)) := by
  have hb : extractAt ![0, 0] b inpos_S1x1_p0_0 = b (ix2 0 0) := by
    unfold extractAt
    congr 1
    funext a
    match a with
    | ⟨0, _⟩ => rfl
    | ⟨1, _⟩ => rfl
  have hf : broadcastTo S10000x2 fb broadcasts_S1x2_S10000x2 j = fb (ix2 0 (j 1)) :=
    (congrArg _ (eq_ix2 j)).trans (broadcastTo_1b_ab_apply fb broadcasts_S1x2_S10000x2 (j 0) (j 1))
  unfold k1_pay1
  rw [shapeCast_self, shapeCast_self, shapeCast_self]
  refine (addf_apply _ _ j).trans ?_
  rw [mm_apply, hf]
  congr 1
  refine Finset.sum_congr rfl fun k _ => ?_
  simp only [addf_apply, broadcast_apply, hb]

/-- Block indices at each of the ten grid points: the node rows and the output rows sit at block row `t`, block column
    `0`; each of the three parameter arrays is one block at the origin. -/
theorem idx_rows1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `r` of grid point `n`'s block is row `n * 10000 + r` of the array. -/
def nodeRow (n : Nat) (hn : n < 10) (r : Fin 10000) : Fin 100000 := ⟨n * 10000 + r.val, by have := r.isLt; omega⟩

theorem point_lt1 (t : Fin cfg1.N) : t.val < 10 := by have hN : cfg1.N = 10 := N_1; have := t.isLt; omega

/-! Each input block at a point, read off its array: the node rows shifted by the point's offset, the three parameter
    arrays whole. -/

theorem blk1_0 (c : Dev nD) (t : Fin cfg1.N) (ht : t.val < 10) :
    iblk1 V c 0 t
      = fun y : S10000x50.Idx => (V c (Pipeline.arrRef spec1 0) : S100000x50.Idx → EReal) (ix2 (nodeRow t.val ht (y 0)) (y 1)) := by
  obtain ⟨e00, e01, e10, e11, e20, e21, e30, e31, e40, e41⟩ := idx_rows1 t
  funext y
  have e : ((cfg1.win 0).blk t).view.emb y = (ix2 (nodeRow t.val ht (y 0)) (y 1) : S100000x50.Idx) := by
    funext a; apply Fin.ext
    match a with
    | ⟨0, _⟩ => show win1_0.index t (0 : Fin 2) * 10000 + 1 * (y 0).val = t.val * 10000 + (y 0).val; omega
    | ⟨1, _⟩ => show win1_0.index t (1 : Fin 2) * 50 + 1 * (y 1).val = (y 1).val; omega
  show (V c (Pipeline.arrRef spec1 0) : S100000x50.Idx → EReal) (((cfg1.win 0).blk t).view.emb y)
    = (V c (Pipeline.arrRef spec1 0) : S100000x50.Idx → EReal) (ix2 (nodeRow t.val ht (y 0)) (y 1))
  exact congrArg (V c (Pipeline.arrRef spec1 0) : S100000x50.Idx → EReal) e

theorem blk1_1 (c : Dev nD) (t : Fin cfg1.N) :
    iblk1 V c 1 t
      = fun y : S1x1.Idx => (V c (Pipeline.arrRef spec1 1) : S1x1.Idx → EReal) (ix2 (y 0) (y 1)) := by
  obtain ⟨e00, e01, e10, e11, e20, e21, e30, e31, e40, e41⟩ := idx_rows1 t
  funext y
  have e : ((cfg1.win 1).blk t).view.emb y = (ix2 (y 0) (y 1) : S1x1.Idx) := by
    funext a; apply Fin.ext
    match a with
    | ⟨0, _⟩ => show win1_1.index t (0 : Fin 2) * 1 + 1 * (y 0).val = (y 0).val; omega
    | ⟨1, _⟩ => show win1_1.index t (1 : Fin 2) * 1 + 1 * (y 1).val = (y 1).val; omega
  show (V c (Pipeline.arrRef spec1 1) : S1x1.Idx → EReal) (((cfg1.win 1).blk t).view.emb y)
    = (V c (Pipeline.arrRef spec1 1) : S1x1.Idx → EReal) (ix2 (y 0) (y 1))
  exact congrArg (V c (Pipeline.arrRef spec1 1) : S1x1.Idx → EReal) e

theorem blk1_2 (c : Dev nD) (t : Fin cfg1.N) :
    iblk1 V c 2 t
      = fun y : S50x2.Idx => (V c (Pipeline.arrRef spec1 2) : S50x2.Idx → EReal) (ix2 (y 0) (y 1)) := by
  obtain ⟨e00, e01, e10, e11, e20, e21, e30, e31, e40, e41⟩ := idx_rows1 t
  funext y
  have e : ((cfg1.win 2).blk t).view.emb y = (ix2 (y 0) (y 1) : S50x2.Idx) := by
    funext a; apply Fin.ext
    match a with
    | ⟨0, _⟩ => show win1_2.index t (0 : Fin 2) * 50 + 1 * (y 0).val = (y 0).val; omega
    | ⟨1, _⟩ => show win1_2.index t (1 : Fin 2) * 2 + 1 * (y 1).val = (y 1).val; omega
  show (V c (Pipeline.arrRef spec1 2) : S50x2.Idx → EReal) (((cfg1.win 2).blk t).view.emb y)
    = (V c (Pipeline.arrRef spec1 2) : S50x2.Idx → EReal) (ix2 (y 0) (y 1))
  exact congrArg (V c (Pipeline.arrRef spec1 2) : S50x2.Idx → EReal) e

theorem blk1_3 (c : Dev nD) (t : Fin cfg1.N) :
    iblk1 V c 3 t
      = fun y : S1x2.Idx => (V c (Pipeline.arrRef spec1 3) : S1x2.Idx → EReal) (ix2 (y 0) (y 1)) := by
  obtain ⟨e00, e01, e10, e11, e20, e21, e30, e31, e40, e41⟩ := idx_rows1 t
  funext y
  have e : ((cfg1.win 3).blk t).view.emb y = (ix2 (y 0) (y 1) : S1x2.Idx) := by
    funext a; apply Fin.ext
    match a with
    | ⟨0, _⟩ => show win1_3.index t (0 : Fin 2) * 1 + 1 * (y 0).val = (y 0).val; omega
    | ⟨1, _⟩ => show win1_3.index t (1 : Fin 2) * 2 + 1 * (y 1).val = (y 1).val; omega
  show (V c (Pipeline.arrRef spec1 3) : S1x2.Idx → EReal) (((cfg1.win 3).blk t).view.emb y)
    = (V c (Pipeline.arrRef spec1 3) : S1x2.Idx → EReal) (ix2 (y 0) (y 1))
  exact congrArg (V c (Pipeline.arrRef spec1 3) : S1x2.Idx → EReal) e

/-- Where an element of the output block sits in the output array. -/
theorem out_row1 (t : Fin cfg1.N) (ht : t.val < 10) (j : S10000x2.Idx) :
    ((cfg1.win 4).blk t).view.emb j = (ix2 (nodeRow t.val ht (j 0)) (j 1) : S100000x2.Idx) := by
  obtain ⟨e00, e01, e10, e11, e20, e21, e30, e31, e40, e41⟩ := idx_rows1 t
  funext a; apply Fin.ext
  match a with
  | ⟨0, _⟩ => show win1_4.index t (0 : Fin 2) * 10000 + 1 * (j 0).val = t.val * 10000 + (j 0).val; omega
  | ⟨1, _⟩ => show win1_4.index t (1 : Fin 2) * 2 + 1 * (j 1).val = (j 1).val; omega

/-- The body's result on the blocks of a point, element by element: the classifier's closed form at the element's
    place in the array. -/
theorem cls_block (H : S100000x50.Idx → EReal) (B : S1x1.Idx → EReal) (WT : S50x2.Idx → EReal) (FB : S1x2.Idx → EReal)
    (n : Nat) (hn : n < 10) (j : S10000x2.Idx) :
    k1_pay1 (F := Ideal) (fun y : S1x1.Idx => B (ix2 (y 0) (y 1))) (fun y : S10000x50.Idx => H (ix2 (nodeRow n hn (y 0)) (y 1)))
        (fun y : S50x2.Idx => WT (ix2 (y 0) (y 1))) (fun y : S1x2.Idx => FB (ix2 (y 0) (y 1))) j
      = clsArr H B WT FB (ix2 (nodeRow n hn (j 0)) (j 1)) :=
  (pay_cls _ _ _ _ j).trans rfl

/-- What a point writes back, as the body's result on the four input blocks read off their arrays. -/
theorem flushed_cls_blocks (c : Dev nD) (t : Fin cfg1.N) (ht : t.val < 10) :
    (dat1 V c).flushed 4 t
      = k1_pay1 (F := Ideal) (fun y : S1x1.Idx => (V c (Pipeline.arrRef spec1 1) : S1x1.Idx → EReal) (ix2 (y 0) (y 1)))
          (fun y : S10000x50.Idx => (V c (Pipeline.arrRef spec1 0) : S100000x50.Idx → EReal) (ix2 (nodeRow t.val ht (y 0)) (y 1)))
          (fun y : S50x2.Idx => (V c (Pipeline.arrRef spec1 2) : S50x2.Idx → EReal) (ix2 (y 0) (y 1)))
          (fun y : S1x2.Idx => (V c (Pipeline.arrRef spec1 3) : S1x2.Idx → EReal) (ix2 (y 0) (y 1))) := by
  show (cfg1.win 4).cut (grid1.coords t) ((dat1 V c).after 4 t) = _
  rw [after1_4]
  unfold out1_4
  rw [View.canon_unit_zero zeros2]
  simp only [View.ld_unit_zero (S := S10000x50) zeros2, View.ld_unit_zero (S := S1x1) zeros2,
    View.ld_unit_zero (S := S50x2) zeros2, View.ld_unit_zero (S := S1x2) zeros2]
  rw [blk1_0 V c t ht, blk1_1 V c t, blk1_2 V c t, blk1_3 V c t]
  rfl

theorem flushed_cls (c : Dev nD) (t : Fin cfg1.N) :
    (dat1 V c).flushed 4 t
      = ((cfg1.win 4).blk t).view.read (Elt Ideal)
          (clsArr (V c (Pipeline.arrRef spec1 0)) (V c (Pipeline.arrRef spec1 1)) (V c (Pipeline.arrRef spec1 2)) (V c (Pipeline.arrRef spec1 3))) := by
  have ht := point_lt1 t
  rw [flushed_cls_blocks V c t ht]
  funext j
  exact (cls_block (V c (Pipeline.arrRef spec1 0)) (V c (Pipeline.arrRef spec1 1)) (V c (Pipeline.arrRef spec1 2)) (V c (Pipeline.arrRef spec1 3)) t.val ht j).trans
    (congrArg (clsArr (V c (Pipeline.arrRef spec1 0)) (V c (Pipeline.arrRef spec1 1)) (V c (Pipeline.arrRef spec1 2)) (V c (Pipeline.arrRef spec1 3))) (out_row1 t ht j).symm)

theorem mem_rows_cls (t : Fin cfg1.N) (i : S100000x2.Idx) :
    i ∈ ((cfg1.win 4).blk t).view.set ↔ ∀ a : Fin 2, win1_4.index t a * S10000x2.size a ≤ (i a).val ∧ (i a).val < win1_4.index t a * S10000x2.size a + S10000x2.size a := by
  show i ∈ ((View.whole main_v53).slice (win1_4.rect t)).set ↔ _
  rw [View.set_slice_whole, Rect.mem_set_unit]
  exact Iff.rfl

/-- The point that writes group row `r` is `r / 10000`. -/
def rowPoint1 (i : S100000x2.Idx) : Fin cfg1.N :=
  ⟨(i 0).val / 10000, by have h : (i 0).val < 100000 := (i 0).isLt; have hN : cfg1.N = 10 := N_1; omega⟩

theorem covered_cls (i : S100000x2.Idx) :
    ∃ t : Fin cfg1.N, (cfg1.win 4).flush t = true ∧ i ∈ ((cfg1.win 4).blk t).view.set := by
  have hi0 : (i 0).val < 100000 := (i 0).isLt
  have hi1 : (i 1).val < 2 := (i 1).isLt
  refine ⟨rowPoint1 i, flush1_4 _, ?_⟩
  rw [mem_rows_cls]
  obtain ⟨e00, e01, e10, e11, e20, e21, e30, e31, e40, e41⟩ := idx_rows1 (rowPoint1 i)
  have ht : (rowPoint1 i).val = (i 0).val / 10000 := rfl
  intro a
  match a with
  | ⟨0, _⟩ => show win1_4.index (rowPoint1 i) (0 : Fin 2) * 10000 ≤ (i 0).val ∧ (i 0).val < win1_4.index (rowPoint1 i) (0 : Fin 2) * 10000 + 10000; omega
  | ⟨1, _⟩ => show win1_4.index (rowPoint1 i) (1 : Fin 2) * 2 ≤ (i 1).val ∧ (i 1).val < win1_4.index (rowPoint1 i) (1 : Fin 2) * 2 + 2; omega

theorem region1_out (c : Dev nD) :
    (dat1 V c).arrAt 4 cfg1.N
      = clsArr (V c (Pipeline.arrRef spec1 0)) (V c (Pipeline.arrRef spec1 1)) (V c (Pipeline.arrRef spec1 2)) (V c (Pipeline.arrRef spec1 3)) :=
  (dat1 V c).arrAt_eq_of_cover 4 _ (fun t _ => flushed_cls V c t) covered_cls

/-! ## The closed forms read at an index -/

theorem xwArr_apply (X : S40960x128.Idx → EReal) (Wt : S1x1.Idx → EReal) (i : S40960x128.Idx) :
    xwArr X Wt i = X i * Wt (ix2 0 0) := rfl
theorem disArr_apply (Dg : S40960x128.Idx → EReal) (i : S40960x128.Idx) :
    disArr Dg i = Cert.GcnSpec.disOf (Dg i) := rfl
theorem selfArr_apply (X Dg : S40960x128.Idx → EReal) (Wt : S1x1.Idx → EReal) (i : S40960x128.Idx) :
    selfArr X Dg Wt i = ((X i * Wt (ix2 0 0)) * Cert.GcnSpec.disOf (Dg i)) * Cert.GcnSpec.disOf (Dg i) := rfl
theorem clsArr_apply (H : S100000x50.Idx → EReal) (B : S1x1.Idx → EReal) (WT : S50x2.Idx → EReal) (FB : S1x2.Idx → EReal)
    (i : S100000x2.Idx) :
    clsArr H B WT FB i = (∑ k : Fin 50, (H (ix2 (i 0) k) + B (ix2 0 0)) * WT (ix2 k (i 1))) + FB (ix2 0 (i 1)) := rfl

end Cert.KernelIdeal.RegionValue

end
-- ==== Proof.KernelIsSpec.lean ====
/-
  The idealized kernel program's result array, at the last boundary of its run, IS `Cert.GcnSpec.outK` of the six
  argument arrays at launch.

  The first region's three outputs, cut back to the nodes, are `xw`, `dis` and `(xw · dis) · dis` at every node (its
  closed forms over its inputs — x and the degree, padded and tiled — read at a node). The second region reads the
  regrouped `h` (the scatter-add of the messages plus the self-loop term: `hK` at node `50 g + k`), the bias, the
  transposed classifier matrix and its bias; its closed form is then `outK`.
-/
import proofs.«174288_j48180943127420_2_alg».proof.Proof.KernelHost
import proofs.«174288_j48180943127420_2_alg».proof.Proof.KernelIndex
import proofs.«174288_j48180943127420_2_alg».proof.Proof.KernelRegions

set_option maxRecDepth 16384

noncomputable section

namespace Cert.KernelIdeal.KernelSpec

open Cert.KernelIdeal Cert.KernelIdeal.Gen Cert.KernelIdeal.HostArrays Cert.KernelIdeal.HostValue
open Cert.KernelIdeal.HostIndex Cert.KernelIdeal.RegionValue Cert.GcnSpec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- x, flat, padded: what the first region's first window tiles. -/
abbrev xPad : FlatP := padded (shapeCast S5000000 (m ((c : Thread nD τ).loc main_arg0)) shapeCasts_S5000000x1_S5000000)
/-- The degree, padded: what the first region's second window tiles. -/
abbrev degPad : FlatP := padded (degArr (m ((c : Thread nD τ).loc main_arg1)))

/-! ## The first region's outputs -/

theorem out_xw : W6 m ρ c (Proc.devRef .tc main_v15_0) = xwArr (tiled (xPad m c)) (m ((c : Thread nD τ).loc main_arg2)) := by
  refine (W6_arr m ρ c 3).trans ?_
  refine (region0_xw (V5 m ρ) c).trans ?_
  show xwArr (W5 m ρ c (Proc.devRef .tc main_v13)) (W5 m ρ c (Proc.devRef .tc main_arg2)) = _
  rw [W5_v13, W5_arg2]

theorem out_dis : W6 m ρ c (Proc.devRef .tc main_v15_1) = disArr (tiled (degPad m c)) := by
  refine (W6_arr m ρ c 4).trans ?_
  refine (region0_dis (V5 m ρ) c).trans ?_
  show disArr (W5 m ρ c (Proc.devRef .tc main_v14)) = _
  rw [W5_v14]

theorem out_self : W6 m ρ c (Proc.devRef .tc main_v15_2) = selfArr (tiled (xPad m c)) (tiled (degPad m c)) (m ((c : Thread nD τ).loc main_arg2)) := by
  refine (W6_arr m ρ c 5).trans ?_
  refine (region0_self (V5 m ρ) c).trans ?_
  show selfArr (W5 m ρ c (Proc.devRef .tc main_v13)) (W5 m ρ c (Proc.devRef .tc main_v14)) (W5 m ρ c (Proc.devRef .tc main_arg2)) = _
  rw [W5_v13, W5_v14, W5_arg2]

/-- The padded x at a node is x there; the padded degree at a node is the degree there. -/
theorem xPad_node (n : Fin 5000000) : xPad m c (ix1 ⟨n.val, by have := n.isLt; omega⟩) = (m ((c : Thread nD τ).loc main_arg0)) (ix2 n 0) := by
  unfold xPad
  rw [padded_apply, flattenCol_apply]
theorem degPad_node (n : Fin 5000000) : degPad m c (ix1 ⟨n.val, by have := n.isLt; omega⟩) = degK (m ((c : Thread nD τ).loc main_arg1)) n := by
  unfold degPad
  rw [padded_apply, degArr_apply]

theorem xw_node (n : Fin 5000000) :
    cutArr (W6 m ρ c (Proc.devRef .tc main_v15_0)) (ix1 n) = xw (m ((c : Thread nD τ).loc main_arg0)) (m ((c : Thread nD τ).loc main_arg2)) n := by
  rw [out_xw]
  refine (cutArr_apply1 (xPad m c) (fun t => t * (m ((c : Thread nD τ).loc main_arg2)) (ix2 0 0)) _ (fun i => rfl) n).trans ?_
  show xPad m c (ix1 ⟨n.val, _⟩) * (m ((c : Thread nD τ).loc main_arg2)) (ix2 0 0) = _
  rw [xPad_node]
  rfl

theorem dis_node (n : Fin 5000000) :
    cutArr (W6 m ρ c (Proc.devRef .tc main_v15_1)) (ix1 n) = disK (m ((c : Thread nD τ).loc main_arg1)) n := by
  rw [out_dis]
  refine (cutArr_apply1 (degPad m c) disOf _ (fun i => rfl) n).trans ?_
  rw [degPad_node]
  rfl

theorem self_node (n : Fin 5000000) :
    cutArr (W6 m ρ c (Proc.devRef .tc main_v15_2)) (ix1 n)
      = (xw (m ((c : Thread nD τ).loc main_arg0)) (m ((c : Thread nD τ).loc main_arg2)) n * disK (m ((c : Thread nD τ).loc main_arg1)) n) * disK (m ((c : Thread nD τ).loc main_arg1)) n := by
  rw [out_self]
  refine (cutArr_apply2 (xPad m c) (degPad m c)
    (fun t u => ((t * (m ((c : Thread nD τ).loc main_arg2)) (ix2 0 0)) * disOf u) * disOf u) _ (fun i => rfl) n).trans ?_
  show ((xPad m c (ix1 ⟨n.val, _⟩) * (m ((c : Thread nD τ).loc main_arg2)) (ix2 0 0)) * disOf (degPad m c (ix1 ⟨n.val, _⟩))) * disOf (degPad m c (ix1 ⟨n.val, _⟩)) = _
  rw [xPad_node, degPad_node]
  rfl

/-! ## What the second region reads -/

theorem h_node (g : Fin 100000) (k : Fin 50) :
    W7 m ρ c (Proc.devRef .tc main_v49) (ix2 g k) = hK (m ((c : Thread nD τ).loc main_arg0)) (m ((c : Thread nD τ).loc main_arg1)) (m ((c : Thread nD τ).loc main_arg2)) (member g k) := by
  rw [W7_v49, hArr_apply]
  unfold hK
  refine congrArg₂ (· + ·) (congrArg (zero + ·) (Finset.sum_congr rfl fun j _ => ?_)) (self_node m ρ c (member g k))
  rw [colArr_apply, msgArr_apply, rowArr_apply, colArr_apply, xw_node, dis_node, dis_node]
  rfl

/-! ## The result -/

theorem kernel_result :
    W8 m ρ c (Proc.devRef .tc main_v53) = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 4).trans ?_
  refine (region1_out (V7 m ρ) c).trans ?_
  funext i
  obtain ⟨g, cc, rfl⟩ : ∃ (g : Fin 100000) (cc : Fin 2), i = ix2 g cc := ⟨i 0, i 1, eq_ix2 i⟩
  show clsArr (W7 m ρ c (Proc.devRef .tc main_v49)) (W7 m ρ c (Proc.devRef .tc main_v50))
    (W7 m ρ c (Proc.devRef .tc main_v51)) (W7 m ρ c (Proc.devRef .tc main_v52)) (ix2 g cc) = _
  rw [clsArr_apply]
  unfold outK
  refine congrArg₂ (· + ·) (Finset.sum_congr rfl fun k _ => ?_) ?_
  · refine congrArg₂ (· * ·) (congrArg₂ (· + ·) (h_node m ρ c g k) ?_) ?_
    · rw [W7_v50]; exact bias_apply _
    · rw [W7_v51]; exact fwT_apply _ k cc
  · rw [W7_v52]; exact fbRow_apply _ cc

end Cert.KernelIdeal.KernelSpec

end
-- ==== Proof.GcnCore.lean ====
/-
  The kernel program and the reference program of `GcnSpec` are the same function of the six argument arrays.

  The reference sums over 85,000,000 positions: the 80,000,000 edges and then one self loop per node. Such a sum
  splits into the sum over the edges plus the sum over the self loops. On an edge position the extended source and
  target words are the edge's own. On the self-loop position of node `n'` both words are the word `n'`, which is
  below 2^31, so read signed it is `n'`: it hits node `n` exactly when `n' = n`, and as a gather index it reads node
  `n'` (no wrap, no clamp). Hence the self-loop sum of `if hits … then c else 0` has the single summand `c` at `n`.
  The rest is associativity of `+` and of `·` on the extended reals.
-/
import proofs.«174288_j48180943127420_2_alg».proof.Proof.GcnSpec

noncomputable section

namespace Cert.GcnSpec

open Idealize.ShloMosaic Idealize.ShloMosaic.ValueIdx

/-! ## Splitting a sum over the extended edge list -/

/-- A sum over the 85,000,000 positions is the sum over the 80,000,000 edge positions plus the sum over the
    5,000,000 self-loop positions `80,000,000 + n`. -/
theorem sum_split (f : Fin 85000000 → EReal) :
    ∑ j : Fin 85000000, f j
      = (∑ j : Fin 80000000, f ⟨j.val, by omega⟩) + ∑ n : Fin 5000000, f ⟨80000000 + n.val, by omega⟩ := by
  have h : (80000000 + 5000000 : Nat) = 85000000 := by norm_num
  rw [← Fin.sum_congr' f h, Fin.sum_univ_add]
  rfl

/-! ## Words of the node range -/

/-- The 32-bit word of a node number has that number as its value. -/
theorem toNat_ofNat_node (n : Fin 5000000) : (BitVec.ofNat 32 n.val).toNat = n.val := by
  rw [BitVec.toNat_ofNat]
  exact Nat.mod_eq_of_lt (Nat.lt_of_lt_of_le n.isLt (by norm_num))

/-- Read signed, the word of a node number is that number (it is below 2^31). -/
theorem toInt_ofNat_node (n : Fin 5000000) : (BitVec.ofNat 32 n.val).toInt = (n.val : Int) := by
  have h2 : 2 * (BitVec.ofNat 32 n.val).toNat < 2 ^ 32 := by
    rw [toNat_ofNat_node]
    have := n.isLt
    norm_num
    omega
  rw [BitVec.toInt_eq_toNat_of_lt h2, toNat_ofNat_node]

/-- The word of node `n'` hits node `n` exactly when `n' = n`. -/
theorem hits_ofNat (n' n : Fin 5000000) : hits (BitVec.ofNat 32 n'.val) n ↔ n' = n := by
  show (BitVec.ofNat 32 n'.val).toInt = (n.val : Int) ↔ n' = n
  rw [toInt_ofNat_node]
  constructor
  · intro h
    exact Fin.ext (by exact_mod_cast h)
  · rintro rfl
    rfl

/-- The word of a node number is not negative, so it does not wrap. -/
theorem wrap_ofNat (n : Fin 5000000) : wrap (BitVec.ofNat 32 n.val) = BitVec.ofNat 32 n.val := by
  have hs : (BitVec.ofNat 32 n.val).slt 0#32 = false := by
    unfold BitVec.slt
    rw [toInt_ofNat_node]
    simp
  have hc : IntOp.cmpi .slt (BitVec.ofNat 32 n.val) 0#32 = 0#1 := by
    show BitVec.ofBool ((BitVec.ofNat 32 n.val).slt 0#32) = 0#1
    rw [hs]
    rfl
  unfold wrap Scalar.select
  rw [hc]
  exact if_neg (by decide)

/-- As a gather index the word of node `n` reads node `n`. -/
theorem node_ofNat (n : Fin 5000000) : node (BitVec.ofNat 32 n.val) = n := by
  apply Fin.ext
  show min (wrap (BitVec.ofNat 32 n.val)).toInt.toNat (5000000 - 1) = n.val
  rw [wrap_ofNat, toInt_ofNat_node, Int.toNat_natCast]
  have := n.isLt
  omega

/-- Over the self loops, `if the word of n' hits n then g n' else 0` sums to `g n`. -/
theorem sum_loop (n : Fin 5000000) (g : Fin 5000000 → EReal) :
    (∑ n' : Fin 5000000, if hits (BitVec.ofNat 32 n'.val) n then g n' else 0) = g n := by
  have h : ∀ n' : Fin 5000000,
      (if hits (BitVec.ofNat 32 n'.val) n then g n' else 0) = if n' = n then g n' else 0 := by
    intro n'
    exact if_congr (hits_ofNat n' n) rfl rfl
  rw [Finset.sum_congr rfl (fun n' _ => h n'), Finset.sum_ite_eq']
  exact if_pos (Finset.mem_univ n)

section
variable (x : (⟨2, ![5000000, 1]⟩ : Shape).Idx → EReal) (ei : IVec ⟨2, ![2, 80000000]⟩ 32)
  (w : (⟨2, ![1, 1]⟩ : Shape).Idx → EReal) (b : (⟨1, ![1]⟩ : Shape).Idx → EReal)
  (fw : (⟨2, ![2, 50]⟩ : Shape).Idx → EReal) (fb : (⟨1, ![2]⟩ : Shape).Idx → EReal)

/-! ## The extended words at an edge position and at a self-loop position -/

theorem src'_lt (j : Fin 80000000) (h : j.val < 85000000) : src' ei ⟨j.val, h⟩ = src ei j :=
  dif_pos j.isLt

theorem tgt'_lt (j : Fin 80000000) (h : j.val < 85000000) : tgt' ei ⟨j.val, h⟩ = tgt ei j :=
  dif_pos j.isLt

theorem src'_loop (n : Fin 5000000) (h : 80000000 + n.val < 85000000) :
    src' ei ⟨80000000 + n.val, h⟩ = BitVec.ofNat 32 n.val := by
  have hn : ¬ (80000000 + n.val < 80000000) := by omega
  refine (dif_neg hn).trans ?_
  show BitVec.ofNat 32 (80000000 + n.val - 80000000) = BitVec.ofNat 32 n.val
  rw [Nat.add_sub_cancel_left]

theorem tgt'_loop (n : Fin 5000000) (h : 80000000 + n.val < 85000000) :
    tgt' ei ⟨80000000 + n.val, h⟩ = BitVec.ofNat 32 n.val := by
  have hn : ¬ (80000000 + n.val < 80000000) := by omega
  refine (dif_neg hn).trans ?_
  show BitVec.ofNat 32 (80000000 + n.val - 80000000) = BitVec.ofNat 32 n.val
  rw [Nat.add_sub_cancel_left]

/-- A sum over the extended list of `if the target word hits n then c else 0` is the same sum over the edges plus
    the summand `c` of node `n`'s own self loop. -/
theorem sum_hits_tgt' (n : Fin 5000000) (c : Fin 85000000 → EReal) :
    (∑ j : Fin 85000000, if hits (tgt' ei j) n then c j else 0)
      = (∑ j : Fin 80000000, if hits (tgt ei j) n then c ⟨j.val, by omega⟩ else 0)
        + c ⟨80000000 + n.val, by omega⟩ := by
  rw [sum_split]
  refine congrArg₂ (· + ·) ?_ ?_
  · refine Finset.sum_congr rfl fun j _ => ?_
    rw [tgt'_lt]
  · have h : ∀ n' : Fin 5000000,
        (if hits (tgt' ei ⟨80000000 + n'.val, by omega⟩) n then c ⟨80000000 + n'.val, by omega⟩ else 0)
          = if hits (BitVec.ofNat 32 n'.val) n then c ⟨80000000 + n'.val, by omega⟩ else 0 := by
      intro n'
      rw [tgt'_loop]
    rw [Finset.sum_congr rfl (fun n' _ => h n')]
    exact sum_loop n (fun n' => c ⟨80000000 + n'.val, by omega⟩)

/-! ## Degrees and normalisers agree -/

theorem degK_eq_degR : degK ei = degR ei := by
  funext n
  unfold degK degR
  rw [sum_hits_tgt' ei n (fun _ => one), add_assoc]

theorem disK_eq_disR : disK ei = disR ei := by
  funext n
  unfold disK disR
  rw [degK_eq_degR]

/-! ## Messages -/

/-- On an edge position the reference's message is the kernel's, regrouped. -/
theorem msgR_lt (j : Fin 80000000) (h : j.val < 85000000) : msgR x ei w ⟨j.val, h⟩ = msgK x ei w j := by
  unfold msgR msgK
  rw [src'_lt, tgt'_lt, ← disK_eq_disR, mul_assoc]

/-- On node `n`'s self-loop position the reference's message is the kernel's last summand, regrouped. -/
theorem msgR_loop (n : Fin 5000000) (h : 80000000 + n.val < 85000000) :
    msgR x ei w ⟨80000000 + n.val, h⟩ = (xw x w n * disK ei n) * disK ei n := by
  unfold msgR
  rw [src'_loop, tgt'_loop, node_ofNat, ← disK_eq_disR, mul_assoc]

/-! ## The layer's output and the classifier -/

theorem hK_add_b (n : Fin 5000000) : hK x ei w n + b (ix1 0) = hR x ei w b n := by
  unfold hK hR
  rw [sum_hits_tgt' ei n (msgR x ei w), msgR_loop, add_assoc zero]
  refine congrArg (fun t => zero + (t + (xw x w n * disK ei n) * disK ei n) + b (ix1 0)) ?_
  refine Finset.sum_congr rfl fun j _ => ?_
  rw [msgR_lt]

theorem outK_eq_outR : outK x ei w b fw fb = outR x ei w b fw fb := by
  funext i
  unfold outK outR
  refine congrArg (fun t => t + fb (ix1 (i 1))) ?_
  refine Finset.sum_congr rfl fun k _ => ?_
  rw [hK_add_b]

end

end Cert.GcnSpec

end
-- ==== Proof.lean ====
/-
  One graph-convolution layer with self loops over 5,000,000 nodes and 80,000,000 edges, then a linear classifier on
  groups of 50 consecutive nodes: a kernel program of two TensorCore regions among host gathers and scatter-adds,
  against a plain reference. At the extended reals both compute (Proof/GcnSpec.lean)

      out g c = Σ k < 50, (h (50 g + k) + b) · fw c k + fb c,
      h n     = Σ over edges e with target n of xw (src e) · dis (src e) · dis (tgt e)  +  xw n · dis n · dis n,
      dis n   = 1 / sqrt (max (deg n) 1) where deg n > 0 (else 0),   deg n = #{edges with target n} + 1,   xw n = x n · w.

  The kernel adds the self loop analytically (the `+ 1` in the degree, the last summand of `h`); the reference lists
  one self-loop edge per node behind the real edges and sums over all 85,000,000 positions. The two agree by
  splitting that sum into the real edges and the self loops (each node's self loop hits that node only), by
  associativity and commutativity of + and · on the extended reals (Proof/GcnCore.lean): no distributivity, no
  cancellation, and so no use of the inputs' finiteness. An edge whose target word is out of range is dropped by both
  scatter-adds alike, and both programs read a node's value through the same wrap-and-clamp of the index word.

  The pieces: the kernel's run with its result named (Proof/KernelRun.lean) and that result as `outK` of the arguments
  (Proof/KernelIsSpec.lean, over the regions' closed forms in Proof/KernelRegions.lean and the host stretches in
  Proof/KernelHost.lean, Proof/KernelArrays.lean, Proof/KernelIndex.lean); the reference's run and its result as `outR`
  (Proof/RefRunP.lean, Proof/RefReadP.lean, Proof/RefIsSpec.lean); `outK = outR` (Proof/GcnCore.lean). The frames of
  both kernel programs are their frame certificates; the reference's frame is its run with the result forgotten. The
  idealization rewrote nothing, so `preserves` is trivial.
-/
import proofs.«174288_j48180943127420_2_alg».proof.Defs
import proofs.«174288_j48180943127420_2_alg».proof.Proof.Gen.Kernel
import proofs.«174288_j48180943127420_2_alg».proof.Proof.Gen.Kernel.Skeleton
import proofs.«174288_j48180943127420_2_alg».proof.Proof.Gen.Kernel.Launch
import proofs.«174288_j48180943127420_2_alg».proof.Proof.Gen.Kernel.Points
import proofs.«174288_j48180943127420_2_alg».proof.Proof.Gen.Kernel.Frame
import proofs.«174288_j48180943127420_2_alg».proof.Proof.Gen.KernelIdeal
import proofs.«174288_j48180943127420_2_alg».proof.Proof.Gen.KernelIdeal.Skeleton
import proofs.«174288_j48180943127420_2_alg».proof.Proof.Gen.KernelIdeal.Launch
import proofs.«174288_j48180943127420_2_alg».proof.Proof.Gen.KernelIdeal.Points
import proofs.«174288_j48180943127420_2_alg».proof.Proof.Gen.KernelIdeal.Frame
import proofs.«174288_j48180943127420_2_alg».proof.Proof.Gen.ReferenceIdeal
import proofs.«174288_j48180943127420_2_alg».proof.Proof.Gen.Pre_finite_inputs
import proofs.«174288_j48180943127420_2_alg».proof.Proof.RefRunP
import proofs.«174288_j48180943127420_2_alg».proof.Proof.RefReadP
import proofs.«174288_j48180943127420_2_alg».proof.Proof.RefIsSpec
import proofs.«174288_j48180943127420_2_alg».proof.Proof.KernelRun
import proofs.«174288_j48180943127420_2_alg».proof.Proof.KernelIsSpec
import proofs.«174288_j48180943127420_2_alg».proof.Proof.GcnCore
import Idealize.ShloMosaic.Adequacy
import Idealize.ShloMosaic.Init

noncomputable section

namespace Cert.Proof

open Idealize.ShloMosaic Idealize.ShloMosaic.TcCoe Idealize.SL.Sem

/-- The word-level kernel program runs and leaves its arguments: its frame certificate. -/
theorem frame_kernel : Cert.frame_Kernel := fun m ρ _ => Cert.Kernel.Gen.frame m ρ

/-- The idealized kernel program runs and leaves its arguments: its frame certificate. -/
theorem frame_kernelIdeal : Cert.frame_KernelIdeal := fun m ρ _ => Cert.KernelIdeal.Gen.frame m ρ

/-- The reference runs and leaves its arguments: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the result array at `outK` of the (agreeing) arguments: the kernel's by its regions' closed
    forms and its host stretches, the reference's at `outR`, which is `outK`. -/
theorem algebraic : Cert.algebraic_KernelIdeal_ReferenceIdeal := by
  intro m ρ m' ρ' _ hagree
  refine ⟨fun c => Cert.GcnSpec.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelSpec.kernel_result m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v53_eq, Cert.ReferenceIdeal.RefSpec.result_eq,
      (hagree c).1, (hagree c).2.1, (hagree c).2.2.1, (hagree c).2.2.2.1, (hagree c).2.2.2.2.1, (hagree c).2.2.2.2.2]
    exact (Cert.GcnSpec.outK_eq_outR _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
